-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S_ : Shape := ⟨0, ![]⟩

class Facts : Prop where
  bcast_S_S1024x602 : S_.BroadcastsInDim S1024x602 (![] : Fin 0 → Fin S1024x602.rank)
  reducesTo_S1024x602_S_d0_1 : S1024x602.ReducesTo [0, 1] S_
  h_S_ : 0 < S_.numel
  bcast_S_S25600x602 : S_.BroadcastsInDim S25600x602 (![] : Fin 0 → Fin S25600x602.rank)
  reducesTo_S25600x602_S_d0_1 : S25600x602.ReducesTo [0, 1] S_
  bcast_S_S256000x602 : S_.BroadcastsInDim S256000x602 (![] : Fin 0 → Fin S256000x602.rank)
  reducesTo_S256000x602_S_d0_1 : S256000x602.ReducesTo [0, 1] S_
  bcast_S_S1204x256 : S_.BroadcastsInDim S1204x256 (![] : Fin 0 → Fin S1204x256.rank)
  reducesTo_S1204x256_S_d0_1 : S1204x256.ReducesTo [0, 1] S_
  bcast_S_S512x41 : S_.BroadcastsInDim S512x41 (![] : Fin 0 → Fin S512x41.rank)
  reducesTo_S512x41_S_d0_1 : S512x41.ReducesTo [0, 1] S_

variable [Facts]

def fn_part1 {F : FTy → Type} [FloatOps F] (main_arg4 : FVec F S512x41 .f32) (main_v13 : IVec S_ 1) (main_v16 : IVec S1204x256 1) : IVec S_ 1 :=
  let main_c_5 : IVec S_ 1 := constantI S_ 1 1#1
  let main_v17 : IVec S_ 1 := (fun x v => Host.reduce IntOp.andi x v reducesTo_S1204x256_S_d0_1 h_S_) main_v16 main_c_5
  let main_v18 : IVec S_ 1 := andi main_v13 main_v17
  let main_v19 : FVec F S512x41 .f32 := Host.absf main_arg4
  let main_cst_6 : FVec F S_ .f32 := constant S_ .f32 0x7F800000#32
  let main_v20 : FVec F S512x41 .f32 := broadcastInDim S512x41 ![] bcast_S_S512x41 main_cst_6
  let main_v21 : IVec S512x41 1 := cmpf .olt main_v19 main_v20
  let main_c_7 : IVec S_ 1 := constantI S_ 1 1#1
  let main_v22 : IVec S_ 1 := (fun x v => Host.reduce IntOp.andi x v reducesTo_S512x41_S_d0_1 h_S_) main_v21 main_c_7
  let main_v23 : IVec S_ 1 := andi main_v18 main_v22
  main_v23

def fn {F : FTy → Type} [FloatOps F] (main_arg0 : FVec F S1024x602 .f32) (main_arg1 : FVec F S25600x602 .f32) (main_arg2 : FVec F S256000x602 .f32) (main_arg3 : FVec F S1204x256 .f32) (main_arg4 : FVec F S512x41 .f32) : IVec S_ 1 :=
  let main_v0 : FVec F S1024x602 .f32 := Host.absf main_arg0
  let main_cst : FVec F S_ .f32 := constant S_ .f32 0x7F800000#32
  let main_v1 : FVec F S1024x602 .f32 := broadcastInDim S1024x602 ![] bcast_S_S1024x602 main_cst
  let main_v2 : IVec S1024x602 1 := cmpf .olt main_v0 main_v1
  let main_c : IVec S_ 1 := constantI S_ 1 1#1
  let main_v3 : IVec S_ 1 := (fun x v => Host.reduce IntOp.andi x v reducesTo_S1024x602_S_d0_1 h_S_) main_v2 main_c
  let main_v4 : FVec F S25600x602 .f32 := Host.absf main_arg1
  let main_cst_0 : FVec F S_ .f32 := constant S_ .f32 0x7F800000#32
  let main_v5 : FVec F S25600x602 .f32 := broadcastInDim S25600x602 ![] bcast_S_S25600x602 main_cst_0
  let main_v6 : IVec S25600x602 1 := cmpf .olt main_v4 main_v5
  let main_c_1 : IVec S_ 1 := constantI S_ 1 1#1
  let main_v7 : IVec S_ 1 := (fun x v => Host.reduce IntOp.andi x v reducesTo_S25600x602_S_d0_1 h_S_) main_v6 main_c_1
  let main_v8 : IVec S_ 1 := andi main_v3 main_v7
  let main_v9 : FVec F S256000x602 .f32 := Host.absf main_arg2
  let main_cst_2 : FVec F S_ .f32 := constant S_ .f32 0x7F800000#32
  let main_v10 : FVec F S256000x602 .f32 := broadcastInDim S256000x602 ![] bcast_S_S256000x602 main_cst_2
  let main_v11 : IVec S256000x602 1 := cmpf .olt main_v9 main_v10
  let main_c_3 : IVec S_ 1 := constantI S_ 1 1#1
  let main_v12 : IVec S_ 1 := (fun x v => Host.reduce IntOp.andi x v reducesTo_S256000x602_S_d0_1 h_S_) main_v11 main_c_3
  let main_v13 : IVec S_ 1 := andi main_v8 main_v12
  let main_v14 : FVec F S1204x256 .f32 := Host.absf main_arg3
  let main_cst_4 : FVec F S_ .f32 := constant S_ .f32 0x7F800000#32
  let main_v15 : FVec F S1204x256 .f32 := broadcastInDim S1204x256 ![] bcast_S_S1204x256 main_cst_4
  let main_v16 : IVec S1204x256 1 := cmpf .olt main_v14 main_v15
  fn_part1 (F := F) main_arg4 main_v13 main_v16
-- ==== Kernel.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S602x256 : Shape := ⟨2, ![602, 256]⟩
abbrev S256x41 : Shape := ⟨2, ![256, 41]⟩
abbrev S25600x10x602 : Shape := ⟨3, ![25600, 10, 602]⟩
abbrev S1024x256 : Shape := ⟨2, ![1024, 256]⟩
abbrev S25600x256 : Shape := ⟨2, ![25600, 256]⟩
abbrev S16x602 : Shape := ⟨2, ![16, 602]⟩
abbrev S400x602 : Shape := ⟨2, ![400, 602]⟩
abbrev S400x10x602 : Shape := ⟨3, ![400, 10, 602]⟩
abbrev S16x256 : Shape := ⟨2, ![16, 256]⟩
abbrev S400x256 : Shape := ⟨2, ![400, 256]⟩
abbrev S16x25x602 : Shape := ⟨3, ![16, 25, 602]⟩
abbrev S1024x25x256 : Shape := ⟨3, ![1024, 25, 256]⟩
abbrev S1024x41 : Shape := ⟨2, ![1024, 41]⟩
abbrev S128x256 : Shape := ⟨2, ![128, 256]⟩
abbrev S128x25x256 : Shape := ⟨3, ![128, 25, 256]⟩
abbrev S128x41 : Shape := ⟨2, ![128, 41]⟩
abbrev S128 : Shape := ⟨1, ![128]⟩
abbrev S128x1 : Shape := ⟨2, ![128, 1]⟩

abbrev nBuf : Space → Nat
  | .hbm => 14
  | .vmem => 20
  | .smem => 0
  | _ => 0

abbrev bufTy : (tb : Table) → Fin (tcTables nBuf tb) → BufTy
  | .hbm, ⟨0, _⟩ => ⟨S1024x602, .f32⟩
  | .hbm, ⟨1, _⟩ => ⟨S25600x602, .f32⟩
  | .hbm, ⟨2, _⟩ => ⟨S256000x602, .f32⟩
  | .hbm, ⟨3, _⟩ => ⟨S1204x256, .f32⟩
  | .hbm, ⟨4, _⟩ => ⟨S512x41, .f32⟩
  | .hbm, ⟨5, _⟩ => ⟨S602x256, .f32⟩
  | .hbm, ⟨6, _⟩ => ⟨S602x256, .f32⟩
  | .hbm, ⟨7, _⟩ => ⟨S256x41, .f32⟩
  | .hbm, ⟨8, _⟩ => ⟨S256x41, .f32⟩
  | .hbm, ⟨9, _⟩ => ⟨S25600x10x602, .f32⟩
  | .hbm, ⟨10, _⟩ => ⟨S1024x256, .f32⟩
  | .hbm, ⟨11, _⟩ => ⟨S25600x256, .f32⟩
  | .hbm, ⟨12, _⟩ => ⟨S1024x25x256, .f32⟩
  | .hbm, ⟨13, _⟩ => ⟨S1024x41, .f32⟩
  | .local _ .vmem, ⟨0, _⟩ => ⟨S16x602, .f32⟩
  | .local _ .vmem, ⟨1, _⟩ => ⟨S16x602, .f32⟩
  | .local _ .vmem, ⟨2, _⟩ => ⟨S400x602, .f32⟩
  | .local _ .vmem, ⟨3, _⟩ => ⟨S400x602, .f32⟩
  | .local _ .vmem, ⟨4, _⟩ => ⟨S400x10x602, .f32⟩
  | .local _ .vmem, ⟨5, _⟩ => ⟨S400x10x602, .f32⟩
  | .local _ .vmem, ⟨6, _⟩ => ⟨S602x256, .f32⟩
  | .local _ .vmem, ⟨7, _⟩ => ⟨S602x256, .f32⟩
  | .local _ .vmem, ⟨8, _⟩ => ⟨S16x256, .f32⟩
  | .local _ .vmem, ⟨9, _⟩ => ⟨S16x256, .f32⟩
  | .local _ .vmem, ⟨10, _⟩ => ⟨S400x256, .f32⟩
  | .local _ .vmem, ⟨11, _⟩ => ⟨S400x256, .f32⟩
  | .local _ .vmem, ⟨12, _⟩ => ⟨S128x256, .f32⟩
  | .local _ .vmem, ⟨13, _⟩ => ⟨S128x256, .f32⟩
  | .local _ .vmem, ⟨14, _⟩ => ⟨S128x25x256, .f32⟩
  | .local _ .vmem, ⟨15, _⟩ => ⟨S128x25x256, .f32⟩
  | .local _ .vmem, ⟨16, _⟩ => ⟨S256x41, .f32⟩
  | .local _ .vmem, ⟨17, _⟩ => ⟨S256x41, .f32⟩
  | .local _ .vmem, ⟨18, _⟩ => ⟨S128x41, .f32⟩
  | .local _ .vmem, ⟨19, _⟩ => ⟨S128x41, .f32⟩
  | _, _ => ⟨S1024x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x602 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x10x602 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S602x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S602x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x25x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x41 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x41 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S1204x256_S602x256_0_0 : S1204x256.Slices ![0, 0] S602x256
  slices_S1204x256_S602x256_602_0 : S1204x256.Slices ![602, 0] S602x256
  slices_S512x41_S256x41_0_0 : S512x41.Slices ![0, 0] S256x41
  slices_S512x41_S256x41_256_0 : S512x41.Slices ![256, 0] S256x41
  shapeCasts_S256000x602_S25600x10x602 : S256000x602.ShapeCasts S25600x10x602
  inb_S602x256_S602x256_0_0 : ∀ a, (![0, 0] : Fin 2 → Nat) a + S602x256.size a ≤ S602x256.size a
  h_S602x256 : 0 < S602x256.numel
  shapeCasts_S602x256_S602x256 : S602x256.ShapeCasts S602x256
  inb_S400x602_S400x602_0_0 : ∀ a, (![0, 0] : Fin 2 → Nat) a + S400x602.size a ≤ S400x602.size a
  h_S400x602 : 0 < S400x602.numel
  inb_S400x10x602_S400x10x602_0_0_0 : ∀ a, (![0, 0, 0] : Fin 3 → Nat) a + S400x10x602.size a ≤ S400x10x602.size a
  h_S400x10x602 : 0 < S400x10x602.numel
  shapeCasts_S400x10x602_S400x10x602 : S400x10x602.ShapeCasts S400x10x602
  reduces_S400x10x602_S400x602 : S400x10x602.Reduces [1] S400x602
  inb_S400x256_S400x256_0_0 : ∀ a, (![0, 0] : Fin 2 → Nat) a + S400x256.size a ≤ S400x256.size a
  h_S400x256 : 0 < S400x256.numel
  shapeCasts_S400x602_S16x25x602 : S400x602.ShapeCasts S16x25x602
  reduces_S16x25x602_S16x602 : S16x25x602.Reduces [1] S16x602
  inb_S16x602_S16x602_0_0 : ∀ a, (![0, 0] : Fin 2 → Nat) a + S16x602.size a ≤ S16x602.size a
  h_S16x602 : 0 < S16x602.numel
  inb_S16x256_S16x256_0_0 : ∀ a, (![0, 0] : Fin 2 → Nat) a + S16x256.size a ≤ S16x256.size a
  h_S16x256 : 0 < S16x256.numel
  shapeCasts_S25600x256_S1024x25x256 : S25600x256.ShapeCasts S1024x25x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x25x256_S128x25x256_0_0_0 : ∀ a, (![0, 0, 0] : Fin 3 → Nat) a + S128x25x256.size a ≤ S128x25x256.size a
  h_S128x25x256 : 0 < S128x25x256.numel
  shapeCasts_S128x25x256_S128x25x256 : S128x25x256.ShapeCasts S128x25x256
  reduces_S128x25x256_S128x256 : S128x25x256.Reduces [1] S128x256
  inb_S256x41_S256x41_0_0 : ∀ a, (![0, 0] : Fin 2 → Nat) a + S256x41.size a ≤ S256x41.size a
  h_S256x41 : 0 < S256x41.numel
  shapeCasts_S256x41_S256x41 : S256x41.ShapeCasts S256x41
  reduces_S128x41_S128 : S128x41.Reduces [1] S128
  shapeCasts_S128_S128x1 : S128.ShapeCasts S128x1
  broadcasts_S128x1_S128x41 : S128x1.Broadcasts S128x41
  inb_S128x41_S128x41_0_0 : ∀ a, (![0, 0] : Fin 2 → Nat) a + S128x41.size a ≤ S128x41.size a
  h_S128x41 : 0 < S128x41.numel
  dot_S400x602_S602x256_S400x256_1_0_0_1_n_n_wf : DotDims.WF S400x602 S602x256 S400x256 [1] [0] [0] [1] [] []
  dot_S16x602_S602x256_S16x256_1_0_0_1_n_n_wf : DotDims.WF S16x602 S602x256 S16x256 [1] [0] [0] [1] [] []
  dot_S128x256_S256x41_S128x41_1_0_0_1_n_n_wf : DotDims.WF S128x256 S256x41 S128x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x602.size a ≤ S1024x602.size a
  hwx0_0 : ∀ i : grid0.Coords, EltTy.bits .f32 = 32 ∨ (Rect.block (s := S1024x602) S16x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x602.size a ≤ S25600x602.size a
  hwx0_1 : ∀ i : grid0.Coords, EltTy.bits .f32 = 32 ∨ (Rect.block (s := S25600x602) S400x602.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10x602.size a ≤ S25600x10x602.size a
  hwx0_2 : ∀ i : grid0.Coords, EltTy.bits .f32 = 32 ∨ (Rect.block (s := S25600x10x602) S400x10x602.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S602x256.size a ≤ S602x256.size a
  hwx0_3 : ∀ i : grid0.Coords, EltTy.bits .f32 = 32 ∨ (Rect.block (s := S602x256) S602x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S602x256.size a ≤ S602x256.size a
  hwx0_4 : ∀ i : grid0.Coords, EltTy.bits .f32 = 32 ∨ (Rect.block (s := S602x256) S602x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S1024x256.size a
  hwx0_5 : ∀ i : grid0.Coords, EltTy.bits .f32 = 32 ∨ (Rect.block (s := S1024x256) S16x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S25600x256.size a
  hwx0_6 : ∀ i : grid0.Coords, EltTy.bits .f32 = 32 ∨ (Rect.block (s := S25600x256) S400x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S1024x256.size a
  hwx1_0 : ∀ i : grid1.Coords, EltTy.bits .f32 = 32 ∨ (Rect.block (s := S1024x256) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x25x256.size a ≤ S1024x25x256.size a
  hwx1_1 : ∀ i : grid1.Coords, EltTy.bits .f32 = 32 ∨ (Rect.block (s := S1024x25x256) S128x25x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x41.size a ≤ S256x41.size a
  hwx1_2 : ∀ i : grid1.Coords, EltTy.bits .f32 = 32 ∨ (Rect.block (s := S256x41) S256x41.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x41.size a ≤ S256x41.size a
  hwx1_3 : ∀ i : grid1.Coords, EltTy.bits .f32 = 32 ∨ (Rect.block (s := S256x41) S256x41.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x41.size a ≤ S1024x41.size a
  hwx1_4 : ∀ i : grid1.Coords, EltTy.bits .f32 = 32 ∨ (Rect.block (s := S1024x41) S128x41.size (cc1_transform_4 i) (hinb1_4 i)).WholeWords (EltTy.packing .f32)

variable [Facts₀]

def dot_S400x602_S602x256_S400x256_1_0_0_1_n_n : DotDims S400x602 S602x256 S400x256 where
  lhsContracting := [1]
  rhsContracting := [0]
  lhsNonContracting := [0]
  rhsNonContracting := [1]
  lhsBatch := []
  rhsBatch := []
  wf := dot_S400x602_S602x256_S400x256_1_0_0_1_n_n_wf
def dot_S16x602_S602x256_S16x256_1_0_0_1_n_n : DotDims S16x602 S602x256 S16x256 where
  lhsContracting := [1]
  rhsContracting := [0]
  lhsNonContracting := [0]
  rhsNonContracting := [1]
  lhsBatch := []
  rhsBatch := []
  wf := dot_S16x602_S602x256_S16x256_1_0_0_1_n_n_wf
def dot_S128x256_S256x41_S128x41_1_0_0_1_n_n : DotDims S128x256 S256x41 S128x41 where
  lhsContracting := [1]
  rhsContracting := [0]
  lhsNonContracting := [0]
  rhsNonContracting := [1]
  lhsBatch := []
  rhsBatch := []
  wf := dot_S128x256_S256x41_S128x41_1_0_0_1_n_n_wf

abbrev win0_0 : Pipeline.Window sig grid0 :=
  Pipeline.Window.ofSpec (Memref.whole main_arg0) S16x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x10x602.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S602x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S602x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S16x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x25x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x41.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S1024x25x602 : Shape := ⟨3, ![1024, 25, 602]⟩
abbrev S_ : Shape := ⟨0, ![]⟩
abbrev S1024x1204 : Shape := ⟨2, ![1024, 1204]⟩
abbrev S1024x256 : Shape := ⟨2, ![1024, 256]⟩
abbrev S25600x10x602 : Shape := ⟨3, ![25600, 10, 602]⟩
abbrev S25600x1204 : Shape := ⟨2, ![25600, 1204]⟩
abbrev S25600x256 : Shape := ⟨2, ![25600, 256]⟩
abbrev S1024x25x256 : Shape := ⟨3, ![1024, 25, 256]⟩
abbrev S1024x512 : Shape := ⟨2, ![1024, 512]⟩
abbrev S1024x41 : Shape := ⟨2, ![1024, 41]⟩
abbrev S1024 : Shape := ⟨1, ![1024]⟩
abbrev S1024x1 : Shape := ⟨2, ![1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x602, .f32⟩
  | .hbm, ⟨1, _⟩ => ⟨S25600x602, .f32⟩
  | .hbm, ⟨2, _⟩ => ⟨S256000x602, .f32⟩
  | .hbm, ⟨3, _⟩ => ⟨S1204x256, .f32⟩
  | .hbm, ⟨4, _⟩ => ⟨S512x41, .f32⟩
  | .hbm, ⟨5, _⟩ => ⟨S1024x25x602, .f32⟩
  | .hbm, ⟨6, _⟩ => ⟨S_, .f32⟩
  | .hbm, ⟨7, _⟩ => ⟨S1024x602, .f32⟩
  | .hbm, ⟨8, _⟩ => ⟨S_, .f32⟩
  | .hbm, ⟨9, _⟩ => ⟨S1024x602, .f32⟩
  | .hbm, ⟨10, _⟩ => ⟨S1024x602, .f32⟩
  | .hbm, ⟨11, _⟩ => ⟨S1024x1204, .f32⟩
  | .hbm, ⟨12, _⟩ => ⟨S1024x256, .f32⟩
  | .hbm, ⟨13, _⟩ => ⟨S25600x10x602, .f32⟩
  | .hbm, ⟨14, _⟩ => ⟨S_, .f32⟩
  | .hbm, ⟨15, _⟩ => ⟨S25600x602, .f32⟩
  | .hbm, ⟨16, _⟩ => ⟨S_, .f32⟩
  | .hbm, ⟨17, _⟩ => ⟨S25600x602, .f32⟩
  | .hbm, ⟨18, _⟩ => ⟨S25600x602, .f32⟩
  | .hbm, ⟨19, _⟩ => ⟨S25600x1204, .f32⟩
  | .hbm, ⟨20, _⟩ => ⟨S25600x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S25600x256, .f32⟩
  | .hbm, ⟨26, _⟩ => ⟨S25600x256, .f32⟩
  | .hbm, ⟨27, _⟩ => ⟨S1024x25x256, .f32⟩
  | .hbm, ⟨28, _⟩ => ⟨S_, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x512, .f32⟩
  | .hbm, ⟨34, _⟩ => ⟨S1024x41, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024x1, .f32⟩
  | .hbm, ⟨41, _⟩ => ⟨S1024x41, .f32⟩
  | .hbm, ⟨42, _⟩ => ⟨S1024x41, .f32⟩
  | .hbm, ⟨43, _⟩ => ⟨S1024x41, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S1024x1, .f32⟩
  | .hbm, ⟨48, _⟩ => ⟨S1024x41, .f32⟩
  | .hbm, ⟨49, _⟩ => ⟨S1024x41, .f32⟩
  | _, _ => ⟨S1024x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  shapeCasts_S25600x602_S1024x25x602 : S25600x602.ShapeCasts S1024x25x602
  reducesTo_S1024x25x602_S1024x602_d1 : S1024x25x602.ReducesTo [1] S1024x602
  h_S_ : 0 < S_.numel
  bcast_S_S1024x602 : S_.BroadcastsInDim S1024x602 (![] : Fin 0 → Fin S1024x602.rank)
  concatenates_S1024x602_S1024x602_S1024x1204_d1 : Shape.Concatenates [S1024x602, S1024x602] S1024x1204 1
  shapeCasts_S256000x602_S25600x10x602 : S256000x602.ShapeCasts S25600x10x602
  reducesTo_S25600x10x602_S25600x602_d1 : S25600x10x602.ReducesTo [1] S25600x602
  bcast_S_S25600x602 : S_.BroadcastsInDim S25600x602 (![] : Fin 0 → Fin S25600x602.rank)
  concatenates_S25600x602_S25600x602_S25600x1204_d1 : Shape.Concatenates [S25600x602, S25600x602] S25600x1204 1
  bcast_S_S1024x256 : S_.BroadcastsInDim S1024x256 (![] : Fin 0 → Fin S1024x256.rank)
  bcast_S_S25600x256 : S_.BroadcastsInDim S25600x256 (![] : Fin 0 → Fin S25600x256.rank)
  shapeCasts_S25600x256_S1024x25x256 : S25600x256.ShapeCasts S1024x25x256
  reducesTo_S1024x25x256_S1024x256_d1 : S1024x25x256.ReducesTo [1] S1024x256
  concatenates_S1024x256_S1024x256_S1024x512_d1 : Shape.Concatenates [S1024x256, S1024x256] S1024x512 1
  reducesTo_S1024x41_S1024_d1 : S1024x41.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x41_0_1 : S1024x1.BroadcastsInDim S1024x41 (![0, 1] : Fin 2 → Fin S1024x41.rank)
  dot_S1024x1204_S1204x256_S1024x256_1_0_0_1_n_n_wf : DotDims.WF S1024x1204 S1204x256 S1024x256 [1] [0] [0] [1] [] []
  dot_S25600x1204_S1204x256_S25600x256_1_0_0_1_n_n_wf : DotDims.WF S25600x1204 S1204x256 S25600x256 [1] [0] [0] [1] [] []
  dot_S1024x512_S512x41_S1024x41_1_0_0_1_n_n_wf : DotDims.WF S1024x512 S512x41 S1024x41 [1] [0] [0] [1] [] []

variable [Facts₀]

def dot_S1024x1204_S1204x256_S1024x256_1_0_0_1_n_n : DotDims S1024x1204 S1204x256 S1024x256 where
  lhsContracting := [1]
  rhsContracting := [0]
  lhsNonContracting := [0]
  rhsNonContracting := [1]
  lhsBatch := []
  rhsBatch := []
  wf := dot_S1024x1204_S1204x256_S1024x256_1_0_0_1_n_n_wf
def dot_S25600x1204_S1204x256_S25600x256_1_0_0_1_n_n : DotDims S25600x1204 S1204x256 S25600x256 where
  lhsContracting := [1]
  rhsContracting := [0]
  lhsNonContracting := [0]
  rhsNonContracting := [1]
  lhsBatch := []
  rhsBatch := []
  wf := dot_S25600x1204_S1204x256_S25600x256_1_0_0_1_n_n_wf
def dot_S1024x512_S512x41_S1024x41_1_0_0_1_n_n : DotDims S1024x512 S512x41 S1024x41 where
  lhsContracting := [1]
  rhsContracting := [0]
  lhsNonContracting := [0]
  rhsNonContracting := [1]
  lhsBatch := []
  rhsBatch := []
  wf := dot_S1024x512_S512x41_S1024x41_1_0_0_1_n_n_wf

class Facts : Prop extends Facts₀ where

variable [Facts]
-- ==== Proof.KRun.lean ====
/-
  The idealized kernel's run with its result named.

  @main is four segments: five host operations (four slices of the weights, one reshape of the two-hop features), the
  first pallas_call (64 grid points), one host reshape, the second pallas_call (8 grid points). Every weakly fair
  execution terminates, and the final memory holds, at every unscoped buffer, the contents at the last segment
  boundary. Read at the result buffer this is what the second call's write-backs leave in its output array; read at an
  argument it is the launch contents.
-/
import proofs.«138670_j52664888983659_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the five argument arrays end as launched. -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KRun

end
-- ==== Proof.Spec.lean ====
/-
  The mathematics both programs compute, entry by entry, on the extended reals.

  One GraphSAGE layer produces, for a node and an output feature, the node's own feature row against the upper half of
  the weight matrix plus the mean of its neighbours' feature rows against the lower half. The mean is the neighbours'
  sum divided by their number. The first layer is followed by a maximum with zero, the second by a log-softmax over the
  41 classes: with M the row's maximum (taken from minus infinity), an entry is (z − M) − log Σ exp (z − M).

  Neighbours are stored consecutively: node b of 1024 owns rows 25·b … 25·b + 24 of the 25600 one-hop rows, and one-hop
  row n owns rows 10·n … 10·n + 9 of the 256000 two-hop rows. A stacked weight matrix of 2·D rows holds the self weights
  in rows 0 … D − 1 and the neighbour weights in rows D … 2·D − 1.
-/
import Idealize.ShloMosaic.PureOps.Ideal

noncomputable section

open scoped BigOperators

namespace Cert.Spec

open Idealize.ShloMosaic

/-- The float words the programs carry: zero, minus infinity, ten, twenty-five. They are never evaluated, only matched. -/
abbrev w0 : EReal := Ideal.ofBits .f32 0x00000000#32
abbrev wNegInf : EReal := Ideal.ofBits .f32 0xFF800000#32
abbrev w10 : EReal := Ideal.ofBits .f32 0x41200000#32
abbrev w25 : EReal := Ideal.ofBits .f32 0x41C80000#32

/-- One entry of a layer before its activation: the self row against the self weights' column plus the neighbours' mean
    row (their sum `nsum` over their number `cnt`) against the neighbour weights' column. -/
def sage {D : ℕ} (self nsum : Fin D → EReal) (cnt : EReal) (wa wb : Fin D → EReal) : EReal :=
  (∑ k, self k * wa k) + ∑ k, Ideal.div (nsum k) cnt * wb k

/-- A row's maximum over the 41 classes, taken from minus infinity (and once more against minus infinity, as both
    programs do). -/
def rowMax (z : Fin 41 → EReal) : EReal :=
  max wNegInf ((Finset.univ : Finset (Fin 41)).fold max wNegInf z)

/-- The log-softmax of a row of 41 logits at class `c`. -/
def logSoftmaxRow (z : Fin 41 → EReal) (c : Fin 41) : EReal :=
  (z c - rowMax z) - Ideal.log (∑ c' : Fin 41, Ideal.exp (z c' - rowMax z))

/-- Row `25·b + t` of the one-hop rows: neighbour `t` of node `b`. -/
def row25 (b : Fin 1024) (t : Fin 25) : Fin 25600 := ⟨b.val * 25 + t.val, by have := b.isLt; have := t.isLt; omega⟩
/-- Row `10·n + t` of the two-hop rows: neighbour `t` of one-hop row `n`. -/
def row10 (n : Fin 25600) (t : Fin 10) : Fin 256000 := ⟨n.val * 10 + t.val, by have := n.isLt; have := t.isLt; omega⟩
/-- Row `k` of the stacked first-layer weights: the self weights. -/
def lo602 (k : Fin 602) : Fin 1204 := ⟨k.val, by have := k.isLt; omega⟩
/-- Row `602 + k` of the stacked first-layer weights: the neighbour weights. -/
def hi602 (k : Fin 602) : Fin 1204 := ⟨602 + k.val, by have := k.isLt; omega⟩
/-- Row `k` of the stacked second-layer weights: the self weights. -/
def lo256 (k : Fin 256) : Fin 512 := ⟨k.val, by have := k.isLt; omega⟩
/-- Row `256 + k` of the stacked second-layer weights: the neighbour weights. -/
def hi256 (k : Fin 256) : Fin 512 := ⟨256 + k.val, by have := k.isLt; omega⟩

end Cert.Spec

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Pay.lean ====
/-
  The three block payloads of the two kernels, read at an entry, on the extended reals.

  In the first kernel a grid point holds 400 one-hop rows (with their 10 two-hop neighbours each) and the 16 nodes those
  rows belong to. Its first store is the hidden layer of the 400 one-hop rows: entry (p, q) is the maximum with zero of
  the row's features against the self weights' column q plus the mean of its 10 neighbours' features against the
  neighbour weights' column q. Its second store is the hidden layer of the 16 nodes: node r of the block owns rows
  25·r … 25·r + 24 of the block's 400 one-hop rows. In the second kernel a grid point holds 128 nodes with their 25
  neighbours' hidden rows, and the store is the log-softmax of the second layer's 41 logits.
-/
import proofs.«138670_j52664888983659_2_alg».proof.Proof.Gen.KernelIdeal.Skeleton
import proofs.«138670_j52664888983659_2_alg».proof.Proof.Spec
import proofs.«138670_j52664888983659_2_alg».proof.Proof.LibPlainDot
import proofs.«138670_j52664888983659_2_alg».proof.Proof.LibColumn
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Cert.Spec Idealize.ShloMosaic Idealize.ShloMosaic.ValueIdx

/-- Row `25·r + t` of a block's 400 one-hop rows: neighbour `t` of the block's node `r`. -/
def blkRow25 (r : Fin 16) (t : Fin 25) : Fin 400 := ⟨r.val * 25 + t.val, by have := r.isLt; have := t.isLt; omega⟩

/-- The sum over the middle axis of a rank-3 array, read at (p, k): the sum over the middle coordinate. -/
private theorem sumAxis1_apply {A T K : ℕ} (x : FVec Ideal ⟨3, ![A, T, K]⟩ .f32)
    (h : (⟨3, ![A, T, K]⟩ : Shape).Reduces [1] ⟨2, ![A, K]⟩) (hφ : FKind.Formats .f32)
    (hacc : (0x00000000#32 : BitVec 32) = FKind.add.neutral .f32 hφ) (p : Fin A) (k : Fin K) :
    multiReduction .add [1] ⟨2, ![A, K]⟩ x 0x00000000#32 h hφ hacc (ix2 p k) = ∑ t : Fin T, x (ix3 p t k) := by
  refine (Ideal.multiReduction_add_single x 0x00000000#32 h hφ hacc (ix2 p k)).trans ?_
  show ∑ t : Fin T, x (h.lift (ix2 p k) t) = _
  refine Finset.sum_congr rfl fun t _ => congrArg x ?_
  funext c; apply Fin.ext
  match c with
  | ⟨0, _⟩ => rfl
  | ⟨1, _⟩ => rfl
  | ⟨2, _⟩ => rfl

/-- The 400 one-hop rows of a block regrouped as 16 nodes of 25 neighbours: entry (r, t, k) is row 25·r + t at k. -/
private theorem regroup_apply (x : Vec Ideal S400x602 .f32) (h : S400x602.ShapeCasts S16x25x602)
    (r : Fin 16) (t : Fin 25) (k : Fin 602) :
    shapeCast S16x25x602 x h (ix3 r t k) = x (ix2 (blkRow25 r t) k) :=
  shapeCast_apply x h _ _ (by
    rw [Shape.rowMajor_val_two, Shape.rowMajor_val_three]
    rfl)

/-- The sum over the columns of a matrix, read at row r: the sum of the row's entries. -/
private theorem sumRow_apply {A B : ℕ} (y : FVec Ideal ⟨2, ![A, B]⟩ .f32)
    (h : (⟨2, ![A, B]⟩ : Shape).Reduces [1] ⟨1, ![A]⟩) (hφ : FKind.Formats .f32)
    (hacc : (0x00000000#32 : BitVec 32) = FKind.add.neutral .f32 hφ) (r : Fin A) :
    multiReduction .add [1] ⟨1, ![A]⟩ y 0x00000000#32 h hφ hacc (ix1 r) = ∑ c : Fin B, y (ix2 r c) := by
  refine (Ideal.multiReduction_add_single y 0x00000000#32 h hφ hacc (ix1 r)).trans ?_
  show ∑ c : Fin B, y (h.lift (ix1 r) c) = _
  refine Finset.sum_congr rfl fun c _ => congrArg y ?_
  funext a; apply Fin.ext
  match a with
  | ⟨0, _⟩ => rfl
  | ⟨1, _⟩ => rfl

/-- The maximum over the columns of a matrix from minus infinity, read at row r: the fold of the maximum over the
    row's entries from minus infinity. -/
private theorem maxRow_apply {A B : ℕ} (y : FVec Ideal ⟨2, ![A, B]⟩ .f32)
    (h : (⟨2, ![A, B]⟩ : Shape).Reduces [1] ⟨1, ![A]⟩) (hφ : FKind.Formats .f32)
    (hacc : (0xFF800000#32 : BitVec 32) = FKind.maximumf.neutral .f32 hφ) (r : Fin A) :
    multiReduction .maximumf [1] ⟨1, ![A]⟩ y 0xFF800000#32 h hφ hacc (ix1 r)
      = (Finset.univ : Finset (Fin B)).fold max wNegInf fun c => y (ix2 r c) := by
  refine (Ideal.multiReduction_maximumf_single y 0xFF800000#32 h hφ hacc (ix1 r)).trans ?_
  show (Finset.univ : Finset (Fin B)).fold max wNegInf (y ∘ h.lift (ix1 r)) = _
  refine congrArg (fun f => (Finset.univ : Finset (Fin B)).fold max wNegInf f) (funext fun c => congrArg y ?_)
  funext a; apply Fin.ext
  match a with
  | ⟨0, _⟩ => rfl
  | ⟨1, _⟩ => rfl

/-- The row maximum of the 41 logits, taken once more against minus infinity, written as a column and spread back over
    the row: at (r, c) it is the row's maximum, whatever the class c. -/
private theorem maxCol_apply (z : FVec Ideal S128x41 .f32) (h : S128x41.Reduces [1] S128) (hφ : FKind.Formats .f32)
    (hacc : (0xFF800000#32 : BitVec 32) = FKind.maximumf.neutral .f32 hφ) (hc : S128.ShapeCasts S128x1)
    (hb : S128x1.Broadcasts S128x41) (r : Fin 128) (c : Fin 41) :
    broadcastTo S128x41 (shapeCast S128x1 (maximumf (broadcast S128 (FloatOps.ofBits (F := Ideal) .f32 0xFF800000#32))
        (multiReduction .maximumf [1] S128 z 0xFF800000#32 h hφ hacc)) hc) hb (ix2 r c)
      = rowMax fun c' => z (ix2 r c') := by
  refine (Cert.LibColumn.broadcastTo_a1_ab_apply _ hb r c).trans ?_
  refine (Cert.LibColumn.shapeCast_a_a1_apply _ hc r 0).trans ?_
  refine (maximumf_apply _ _ _).trans ?_
  exact congrArg (max wNegInf) (maxRow_apply z h hφ hacc r)

/-- The log-softmax of a matrix of 41 logits per row, as the second kernel computes it, at (r, c). -/
private theorem logSoftmax_apply (z : FVec Ideal S128x41 .f32) (h : S128x41.Reduces [1] S128)
    (hφ₁ hφ₂ : FKind.Formats .f32) (hmax : (0xFF800000#32 : BitVec 32) = FKind.maximumf.neutral .f32 hφ₁)
    (hadd : (0x00000000#32 : BitVec 32) = FKind.add.neutral .f32 hφ₂) (hc : S128.ShapeCasts S128x1)
    (hb : S128x1.Broadcasts S128x41) (r : Fin 128) (c : Fin 41) :
    subf (subf z (broadcastTo S128x41 (shapeCast S128x1 (maximumf (broadcast S128 (FloatOps.ofBits (F := Ideal) .f32 0xFF800000#32))
          (multiReduction .maximumf [1] S128 z 0xFF800000#32 h hφ₁ hmax)) hc) hb))
        (broadcastTo S128x41 (log (shapeCast S128x1 (multiReduction .add [1] S128
          (exp (subf z (broadcastTo S128x41 (shapeCast S128x1 (maximumf (broadcast S128 (FloatOps.ofBits (F := Ideal) .f32 0xFF800000#32))
            (multiReduction .maximumf [1] S128 z 0xFF800000#32 h hφ₁ hmax)) hc) hb)))
          0x00000000#32 h hφ₂ hadd) hc)) hb) (ix2 r c)
      = logSoftmaxRow (fun c' => z (ix2 r c')) c := by
  refine (subf_apply _ _ _).trans ?_
  refine congrArg₂ (· - ·) ((subf_apply _ _ _).trans (congrArg (z (ix2 r c) - ·) (maxCol_apply z h hφ₁ hmax hc hb r c))) ?_
  refine (Cert.LibColumn.broadcastTo_a1_ab_apply _ hb r c).trans ?_
  show Ideal.log _ = _
  refine congrArg Ideal.log ?_
  refine (Cert.LibColumn.shapeCast_a_a1_apply _ hc r 0).trans ?_
  refine (sumRow_apply _ h hφ₂ hadd r).trans ?_
  refine Finset.sum_congr rfl fun c' _ => ?_
  show Ideal.exp _ = _
  refine congrArg Ideal.exp ?_
  exact (subf_apply _ _ _).trans (congrArg (z (ix2 r c') - ·) (maxCol_apply z h hφ₁ hmax hc hb r c'))

/-- The hidden layer of a block's 400 one-hop rows at (p, q). -/
theorem pay3_apply (v0 v2 : Vec Ideal S602x256 .f32) (v4 : Vec Ideal S400x602 .f32) (v5 : Vec Ideal S400x10x602 .f32)
    (p : Fin 400) (q : Fin 256) :
    k0_pay3 (F := Ideal) v0 v2 v4 v5 (ix2 p q)
      = max (sage (fun k : Fin 602 => v4 (ix2 p k)) (fun k => ∑ t : Fin 10, v5 (ix3 p t k)) w10
          (fun k => v0 (ix2 k q)) (fun k => v2 (ix2 k q))) w0 := by
  unfold k0_pay3 k0_pay1 k0_pay2
  dsimp only
  rw [shapeCast_self v0, shapeCast_self v2, shapeCast_self v5]
  rw [maximumf_apply, addf_apply, broadcast_apply]
  refine congrArg₂ max (congrArg₂ (· + ·) ?_ ?_) rfl
  · exact Cert.LibPlainDot.matmul_zero_apply dot_S400x602_S602x256_S400x256_1_0_0_1_n_n rfl rfl
      (fun _ _ => rfl) (fun _ _ => rfl) rfl rfl (some .fp32) v4 v0 p q
  · refine (Cert.LibPlainDot.matmul_zero_apply dot_S400x602_S602x256_S400x256_1_0_0_1_n_n rfl rfl
      (fun _ _ => rfl) (fun _ _ => rfl) rfl rfl (some .fp32) _ v2 p q).trans ?_
    refine Finset.sum_congr rfl fun k _ => congrArg (· * v2 (ix2 k q)) ?_
    rw [divf_apply, broadcast_apply]
    exact congrArg (Ideal.div · w10) (sumAxis1_apply v5 _ _ _ p k)

/-- The hidden layer of a block's 16 nodes at (r, q). -/
theorem pay4_apply (v0 v2 : Vec Ideal S602x256 .f32) (v4 : Vec Ideal S400x602 .f32) (v20 : Vec Ideal S16x602 .f32)
    (r : Fin 16) (q : Fin 256) :
    k0_pay4 (F := Ideal) v0 v2 v4 v20 (ix2 r q)
      = max (sage (fun k : Fin 602 => v20 (ix2 r k)) (fun k => ∑ t : Fin 25, v4 (ix2 (blkRow25 r t) k)) w25
          (fun k => v0 (ix2 k q)) (fun k => v2 (ix2 k q))) w0 := by
  unfold k0_pay4 k0_pay1 k0_pay2
  dsimp only
  rw [shapeCast_self v0, shapeCast_self v2]
  rw [maximumf_apply, addf_apply, broadcast_apply]
  refine congrArg₂ max (congrArg₂ (· + ·) ?_ ?_) rfl
  · exact Cert.LibPlainDot.matmul_zero_apply dot_S16x602_S602x256_S16x256_1_0_0_1_n_n rfl rfl
      (fun _ _ => rfl) (fun _ _ => rfl) rfl rfl (some .fp32) v20 v0 r q
  · refine (Cert.LibPlainDot.matmul_zero_apply dot_S16x602_S602x256_S16x256_1_0_0_1_n_n rfl rfl
      (fun _ _ => rfl) (fun _ _ => rfl) rfl rfl (some .fp32) _ v2 r q).trans ?_
    refine Finset.sum_congr rfl fun k _ => congrArg (· * v2 (ix2 k q)) ?_
    rw [divf_apply, broadcast_apply]
    refine congrArg (Ideal.div · w25) ((sumAxis1_apply _ _ _ _ r k).trans ?_)
    exact Finset.sum_congr rfl fun t _ => regroup_apply v4 _ r t k

/-- The log-softmax of the second layer's logits of a block's 128 nodes at (r, c). -/
theorem pay1_apply (v0 : Vec Ideal S128x256 .f32) (v2 : Vec Ideal S128x25x256 .f32) (v7 v9 : Vec Ideal S256x41 .f32)
    (r : Fin 128) (c : Fin 41) :
    k1_pay1 (F := Ideal) v0 v2 v7 v9 (ix2 r c)
      = logSoftmaxRow (fun c' => sage (fun k : Fin 256 => v0 (ix2 r k)) (fun k => ∑ t : Fin 25, v2 (ix3 r t k)) w25
          (fun k => v7 (ix2 k c')) (fun k => v9 (ix2 k c'))) c := by
  unfold k1_pay1
  dsimp only
  rw [shapeCast_self v0, shapeCast_self v2, shapeCast_self v7, shapeCast_self v9]
  refine (logSoftmax_apply _ _ _ _ _ _ _ _ r c).trans ?_
  refine congrArg (logSoftmaxRow · c) (funext fun c' => ?_)
  rw [addf_apply]
  refine congrArg₂ (· + ·) ?_ ?_
  · exact Cert.LibPlainDot.matmul_zero_apply dot_S128x256_S256x41_S128x41_1_0_0_1_n_n rfl rfl
      (fun _ _ => rfl) (fun _ _ => rfl) rfl rfl (some .fp32) v0 v7 r c'
  · refine (Cert.LibPlainDot.matmul_zero_apply dot_S128x256_S256x41_S128x41_1_0_0_1_n_n rfl rfl
      (fun _ _ => rfl) (fun _ _ => rfl) rfl rfl (some .fp32) _ v9 r c').trans ?_
    refine Finset.sum_congr rfl fun k _ => congrArg (· * v9 (ix2 k c')) ?_
    rw [divf_apply, broadcast_apply]
    exact congrArg (Ideal.div · w25) (sumAxis1_apply v2 _ _ _ r k)

end Cert.KernelIdeal.Pay

end
-- ==== Proof.Blocks0.lean ====
/-
  The first pallas_call's two output arrays as whole-array functions of the arrays it is entered with.

  Grid point t of 64 holds nodes 16·t … 16·t + 15, one-hop rows 400·t … 400·t + 399 with their ten two-hop neighbours each,
  and the two weight halves whole. It writes back rows 400·t … of the one-hop hidden layer and rows 16·t … of the nodes'
  hidden layer. Node 16·t + r owns the block's one-hop rows 25·r … 25·r + 24, which are rows 25·(16·t + r) … of the array.
  The 64 blocks tile both outputs, so each output array ends holding one function of the entry arrays at every index.
-/
import proofs.«138670_j52664888983659_2_alg».proof.Proof.Gen.KernelIdeal.Frame
import proofs.«138670_j52664888983659_2_alg».proof.Proof.Pay
import Idealize.ShloMosaic.Lib.Pipeline.Value
import Idealize.ShloMosaic.Lib.ValueIdx

set_option maxRecDepth 16384

noncomputable section

open scoped BigOperators

namespace Cert.KernelIdeal.Blocks0

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

/-- The hidden layer of the 25600 one-hop rows as one array: from the one-hop features, the two-hop features grouped by
    ten, and the two weight halves. -/
def H1 (a1 : S25600x602.Idx → EReal) (a2 : S25600x10x602.Idx → EReal) (wa wb : S602x256.Idx → EReal) : S25600x256.Idx → EReal :=
  fun i => max (sage (fun k : Fin 602 => a1 (ix2 (⟨(i 0).val, (i 0).isLt⟩ : Fin 25600) k))
      (fun k => ∑ t : Fin 10, a2 (ix3 (⟨(i 0).val, (i 0).isLt⟩ : Fin 25600) t k)) w10
      (fun k => wa (ix2 k (⟨(i 1).val, (i 1).isLt⟩ : Fin 256))) (fun k => wb (ix2 k (⟨(i 1).val, (i 1).isLt⟩ : Fin 256)))) w0

/-- The hidden layer of the 1024 nodes as one array: from the nodes' features, the one-hop features, and the two weight
    halves. -/
def H0 (a0 : S1024x602.Idx → EReal) (a1 : S25600x602.Idx → EReal) (wa wb : S602x256.Idx → EReal) : S1024x256.Idx → EReal :=
  fun i => max (sage (fun k : Fin 602 => a0 (ix2 (⟨(i 0).val, (i 0).isLt⟩ : Fin 1024) k))
      (fun k => ∑ t : Fin 25, a1 (ix2 (row25 (⟨(i 0).val, (i 0).isLt⟩ : Fin 1024) t) k)) w25
      (fun k => wa (ix2 k (⟨(i 1).val, (i 1).isLt⟩ : Fin 256))) (fun k => wb (ix2 k (⟨(i 1).val, (i 1).isLt⟩ : Fin 256)))) w0

theorem hz2 : (![0, 0] : Fin 2 → Nat) = fun _ => 0 := funext fun a => by fin_cases a <;> rfl
theorem hz3 : (![0, 0, 0] : Fin 3 → Nat) = fun _ => 0 := funext fun a => by fin_cases a <;> rfl

/-- A block's one-hop hidden rows are the array's, when the block's loads are the arrays' rows from row `400·T` on. -/
theorem pay3_block (x1 : Vec Ideal S400x602 .f32) (x2 : Vec Ideal S400x10x602 .f32) (x3 x4 : Vec Ideal S602x256 .f32)
    (a1 : S25600x602.Idx → EReal) (a2 : S25600x10x602.Idx → EReal) (wa wb : S602x256.Idx → EReal)
    (T : ℕ) (hT : T < 64)
    (h1 : ∀ (p : Fin 400) (k : Fin 602), x1 (ix2 p k) = a1 (ix2 (⟨T * 400 + p.val, by have := p.isLt; omega⟩ : Fin 25600) k))
    (h2 : ∀ (p : Fin 400) (s : Fin 10) (k : Fin 602), x2 (ix3 p s k) = a2 (ix3 (⟨T * 400 + p.val, by have := p.isLt; omega⟩ : Fin 25600) s k))
    (h3 : ∀ (k : Fin 602) (q : Fin 256), x3 (ix2 k q) = wa (ix2 k q))
    (h4 : ∀ (k : Fin 602) (q : Fin 256), x4 (ix2 k q) = wb (ix2 k q))
    (j : S400x256.Idx) (i : S25600x256.Idx) (hi0 : (i 0).val = T * 400 + (j 0).val) (hi1 : (i 1).val = (j 1).val) :
    k0_pay3 (F := Ideal) x3 x4 x1 x2 j = H1 a1 a2 wa wb i := by
  obtain ⟨p, q, rfl⟩ : ∃ (p : Fin 400) (q : Fin 256), j = ix2 p q := ⟨j 0, j 1, eq_ix2 j⟩
  have e0 : (⟨(i 0).val, (i 0).isLt⟩ : Fin 25600) = ⟨T * 400 + p.val, by have := p.isLt; omega⟩ := Fin.ext hi0
  have e1 : (⟨(i 1).val, (i 1).isLt⟩ : Fin 256) = q := Fin.ext hi1
  rw [pay3_apply]
  unfold H1
  rw [e0, e1]
  simp only [h1, h2, h3, h4]

/-- A block's node hidden rows are the array's, when the block's loads are the arrays' rows from rows `16·T` and `400·T` on. -/
theorem pay4_block (x0 : Vec Ideal S16x602 .f32) (x1 : Vec Ideal S400x602 .f32) (x3 x4 : Vec Ideal S602x256 .f32)
    (a0 : S1024x602.Idx → EReal) (a1 : S25600x602.Idx → EReal) (wa wb : S602x256.Idx → EReal)
    (T : ℕ) (hT : T < 64)
    (h0 : ∀ (r : Fin 16) (k : Fin 602), x0 (ix2 r k) = a0 (ix2 (⟨T * 16 + r.val, by have := r.isLt; omega⟩ : Fin 1024) k))
    (h1 : ∀ (p : Fin 400) (k : Fin 602), x1 (ix2 p k) = a1 (ix2 (⟨T * 400 + p.val, by have := p.isLt; omega⟩ : Fin 25600) k))
    (h3 : ∀ (k : Fin 602) (q : Fin 256), x3 (ix2 k q) = wa (ix2 k q))
    (h4 : ∀ (k : Fin 602) (q : Fin 256), x4 (ix2 k q) = wb (ix2 k q))
    (j : S16x256.Idx) (i : S1024x256.Idx) (hi0 : (i 0).val = T * 16 + (j 0).val) (hi1 : (i 1).val = (j 1).val) :
    k0_pay4 (F := Ideal) x3 x4 x1 x0 j = H0 a0 a1 wa wb i := by
  obtain ⟨r, q, rfl⟩ : ∃ (r : Fin 16) (q : Fin 256), j = ix2 r q := ⟨j 0, j 1, eq_ix2 j⟩
  have e0 : (⟨(i 0).val, (i 0).isLt⟩ : Fin 1024) = ⟨T * 16 + r.val, by have := r.isLt; omega⟩ := Fin.ext hi0
  have e1 : (⟨(i 1).val, (i 1).isLt⟩ : Fin 256) = q := Fin.ext hi1
  have er : ∀ t : Fin 25, (⟨T * 400 + (blkRow25 r t).val, by have := (blkRow25 r t).isLt; omega⟩ : Fin 25600)
      = row25 (⟨T * 16 + r.val, by have := r.isLt; omega⟩ : Fin 1024) t := fun t => Fin.ext (by
    show T * 400 + (r.val * 25 + t.val) = (T * 16 + r.val) * 25 + t.val
    omega)
  rw [pay4_apply]
  unfold H0
  rw [e0, e1]
  simp only [h0, h1, h3, h4, er]

section Region

variable (V : (c : Dev nD) → (b : Ref sig .tc) → Buf (Elt Ideal) ((c : Thread nD τ).loc b))

/-- The index maps over the 64 grid points: the row-blocked windows move with the point, the weights stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem tlt (t : Fin cfg0.N) : t.val < 64 := by have h : cfg0.N = 64 := N_0; have := t.isLt; omega

/-- The nodes' block at point t is rows 16·t … of the nodes' features. -/
theorem rd0 (c : Dev nD) (t : Fin cfg0.N) (r : Fin 16) (k : Fin 602) :
    (iblk0 V c 0 t : Vec Ideal S16x602 .f32) (ix2 r k)
      = (V c main_arg0 : S1024x602.Idx → EReal) (ix2 (⟨t.val * 16 + r.val, by have := tlt t; have := r.isLt; omega⟩ : Fin 1024) k) := by
  obtain ⟨e00, e01, -⟩ := idx0 t
  show (V c main_arg0 : S1024x602.Idx → EReal) (((cfg0.win 0).blk t).view.emb (ix2 r k)) = _
  refine congrArg _ (funext fun a => Fin.ext ?_)
  match a with
  | ⟨0, _⟩ => show win0_0.index t (0 : Fin 2) * 16 + 1 * r.val = t.val * 16 + r.val; omega
  | ⟨1, _⟩ => show win0_0.index t (1 : Fin 2) * 602 + 1 * k.val = k.val; omega

/-- The one-hop block at point t is rows 400·t … of the one-hop features. -/
theorem rd1 (c : Dev nD) (t : Fin cfg0.N) (p : Fin 400) (k : Fin 602) :
    (iblk0 V c 1 t : Vec Ideal S400x602 .f32) (ix2 p k)
      = (V c main_arg1 : S25600x602.Idx → EReal) (ix2 (⟨t.val * 400 + p.val, by have := tlt t; have := p.isLt; omega⟩ : Fin 25600) k) := by
  obtain ⟨-, -, e10, e11, -⟩ := idx0 t
  show (V c main_arg1 : S25600x602.Idx → EReal) (((cfg0.win 1).blk t).view.emb (ix2 p k)) = _
  refine congrArg _ (funext fun a => Fin.ext ?_)
  match a with
  | ⟨0, _⟩ => show win0_1.index t (0 : Fin 2) * 400 + 1 * p.val = t.val * 400 + p.val; omega
  | ⟨1, _⟩ => show win0_1.index t (1 : Fin 2) * 602 + 1 * k.val = k.val; omega

/-- The two-hop block at point t is rows 400·t … of the grouped two-hop features. -/
theorem rd2 (c : Dev nD) (t : Fin cfg0.N) (p : Fin 400) (s : Fin 10) (k : Fin 602) :
    (iblk0 V c 2 t : Vec Ideal S400x10x602 .f32) (ix3 p s k)
      = (V c main_v4 : S25600x10x602.Idx → EReal) (ix3 (⟨t.val * 400 + p.val, by have := tlt t; have := p.isLt; omega⟩ : Fin 25600) s k) := by
  obtain ⟨-, -, -, -, e20, e21, e22, -⟩ := idx0 t
  show (V c main_v4 : S25600x10x602.Idx → EReal) (((cfg0.win 2).blk t).view.emb (ix3 p s k)) = _
  refine congrArg _ (funext fun a => Fin.ext ?_)
  match a with
  | ⟨0, _⟩ => show win0_2.index t (0 : Fin 3) * 400 + 1 * p.val = t.val * 400 + p.val; omega
  | ⟨1, _⟩ => show win0_2.index t (1 : Fin 3) * 10 + 1 * s.val = s.val; omega
  | ⟨2, _⟩ => show win0_2.index t (2 : Fin 3) * 602 + 1 * k.val = k.val; omega

/-- The self weights' block is the whole array at every point. -/
theorem rd3 (c : Dev nD) (t : Fin cfg0.N) (k : Fin 602) (q : Fin 256) :
    (iblk0 V c 3 t : Vec Ideal S602x256 .f32) (ix2 k q) = (V c main_v0 : S602x256.Idx → EReal) (ix2 k q) := by
  obtain ⟨-, -, -, -, -, -, -, e30, e31, -⟩ := idx0 t
  show (V c main_v0 : S602x256.Idx → EReal) (((cfg0.win 3).blk t).view.emb (ix2 k q)) = _
  refine congrArg _ (funext fun a => Fin.ext ?_)
  match a with
  | ⟨0, _⟩ => show win0_3.index t (0 : Fin 2) * 602 + 1 * k.val = k.val; omega
  | ⟨1, _⟩ => show win0_3.index t (1 : Fin 2) * 256 + 1 * q.val = q.val; omega

/-- The neighbour weights' block is the whole array at every point. -/
theorem rd4 (c : Dev nD) (t : Fin cfg0.N) (k : Fin 602) (q : Fin 256) :
    (iblk0 V c 4 t : Vec Ideal S602x256 .f32) (ix2 k q) = (V c main_v1 : S602x256.Idx → EReal) (ix2 k q) := by
  obtain ⟨-, -, -, -, -, -, -, -, -, e40, e41, -⟩ := idx0 t
  show (V c main_v1 : S602x256.Idx → EReal) (((cfg0.win 4).blk t).view.emb (ix2 k q)) = _
  refine congrArg _ (funext fun a => Fin.ext ?_)
  match a with
  | ⟨0, _⟩ => show win0_4.index t (0 : Fin 2) * 602 + 1 * k.val = k.val; omega
  | ⟨1, _⟩ => show win0_4.index t (1 : Fin 2) * 256 + 1 * q.val = q.val; omega

/-- What point t writes back to the one-hop hidden layer is block t of `H1` of the entry arrays. -/
theorem flushed6 (c : Dev nD) (t : Fin cfg0.N) :
    (dat0 V c).flushed 6 t = ((cfg0.win 6).blk t).view.read (Elt Ideal)
      (H1 (V c main_arg1) (V c main_v4) (V c main_v0) (V c main_v1)) := by
  obtain ⟨-, -, -, -, -, -, -, -, -, -, -, -, -, e60, e61⟩ := idx0 t
  show (cfg0.win 6).cut (grid0.coords t) ((dat0 V c).after 6 t) = _
  rw [after0_6]
  unfold out0_6
  rw [View.canon_unit_zero hz2]
  simp only [View.ld_unit_zero (S := S602x256) hz2, View.ld_unit_zero (S := S400x602) hz2, View.ld_unit_zero (S := S400x10x602) hz3]
  funext j
  show k0_pay3 (F := Ideal) (iblk0 V c 3 t) (iblk0 V c 4 t) (iblk0 V c 1 t) (iblk0 V c 2 t) j
    = H1 (V c main_arg1) (V c main_v4) (V c main_v0) (V c main_v1) (((cfg0.win 6).blk t).view.emb j)
  refine pay3_block (iblk0 V c 1 t) (iblk0 V c 2 t) (iblk0 V c 3 t) (iblk0 V c 4 t)
    (V c main_arg1) (V c main_v4) (V c main_v0) (V c main_v1) t.val (tlt t)
    (rd1 V c t) (rd2 V c t) (rd3 V c t) (rd4 V c t) j (((cfg0.win 6).blk t).view.emb j) ?_ ?_
  · show win0_6.index t (0 : Fin 2) * 400 + 1 * (j 0).val = t.val * 400 + (j 0).val; omega
  · show win0_6.index t (1 : Fin 2) * 256 + 1 * (j 1).val = (j 1).val; omega

/-- What point t writes back to the nodes' hidden layer is block t of `H0` of the entry arrays. -/
theorem flushed5 (c : Dev nD) (t : Fin cfg0.N) :
    (dat0 V c).flushed 5 t = ((cfg0.win 5).blk t).view.read (Elt Ideal)
      (H0 (V c main_arg0) (V c main_arg1) (V c main_v0) (V c main_v1)) := by
  obtain ⟨-, -, -, -, -, -, -, -, -, -, -, e50, e51, -⟩ := idx0 t
  show (cfg0.win 5).cut (grid0.coords t) ((dat0 V c).after 5 t) = _
  rw [after0_5]
  unfold out0_5
  rw [View.canon_unit_zero hz2]
  simp only [View.ld_unit_zero (S := S602x256) hz2, View.ld_unit_zero (S := S400x602) hz2, View.ld_unit_zero (S := S16x602) hz2]
  funext j
  show k0_pay4 (F := Ideal) (iblk0 V c 3 t) (iblk0 V c 4 t) (iblk0 V c 1 t) (iblk0 V c 0 t) j
    = H0 (V c main_arg0) (V c main_arg1) (V c main_v0) (V c main_v1) (((cfg0.win 5).blk t).view.emb j)
  refine pay4_block (iblk0 V c 0 t) (iblk0 V c 1 t) (iblk0 V c 3 t) (iblk0 V c 4 t)
    (V c main_arg0) (V c main_arg1) (V c main_v0) (V c main_v1) t.val (tlt t)
    (rd0 V c t) (rd1 V c t) (rd3 V c t) (rd4 V c t) j (((cfg0.win 5).blk t).view.emb j) ?_ ?_
  · show win0_5.index t (0 : Fin 2) * 16 + 1 * (j 0).val = t.val * 16 + (j 0).val; omega
  · show win0_5.index t (1 : Fin 2) * 256 + 1 * (j 1).val = (j 1).val; omega

/-- Every entry of the one-hop hidden layer is in the block of the point its row falls to. -/
theorem cover6 (i : S25600x256.Idx) :
    ∃ t : Fin cfg0.N, (cfg0.win 6).flush t = true ∧ i ∈ ((cfg0.win 6).blk t).view.set := by
  have hN : cfg0.N = 64 := N_0
  have hi0 : (i 0).val < 25600 := (i 0).isLt
  have hi1 : (i 1).val < 256 := (i 1).isLt
  obtain ⟨t, ht⟩ : ∃ t : Fin cfg0.N, t.val = (i 0).val / 400 := ⟨⟨(i 0).val / 400, by omega⟩, rfl⟩
  obtain ⟨-, -, -, -, -, -, -, -, -, -, -, -, -, e60, e61⟩ := idx0 t
  refine ⟨t, flush0_6 t, ?_⟩
  show i ∈ ((View.whole main_v5_1).slice (win0_6.rect t)).set
  rw [View.set_slice_whole, Rect.mem_set_unit]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 256 ≤ (i 1).val ∧ (i 1).val < win0_6.index t (1 : Fin 2) * 256 + 256; omega

/-- Every entry of the nodes' hidden layer is in the block of the point its row falls to. -/
theorem cover5 (i : S1024x256.Idx) :
    ∃ t : Fin cfg0.N, (cfg0.win 5).flush t = true ∧ i ∈ ((cfg0.win 5).blk t).view.set := by
  have hN : cfg0.N = 64 := N_0
  have hi0 : (i 0).val < 1024 := (i 0).isLt
  have hi1 : (i 1).val < 256 := (i 1).isLt
  obtain ⟨t, ht⟩ : ∃ t : Fin cfg0.N, t.val = (i 0).val / 16 := ⟨⟨(i 0).val / 16, by omega⟩, rfl⟩
  obtain ⟨-, -, -, -, -, -, -, -, -, -, -, e50, e51, -⟩ := idx0 t
  refine ⟨t, flush0_5 t, ?_⟩
  show i ∈ ((View.whole main_v5_0).slice (win0_5.rect t)).set
  rw [View.set_slice_whole, Rect.mem_set_unit]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 256 ≤ (i 1).val ∧ (i 1).val < win0_5.index t (1 : Fin 2) * 256 + 256; omega

/-- After the 64 points the one-hop hidden layer's array holds `H1` of the entry arrays. -/
theorem final6 (c : Dev nD) :
    (dat0 V c).arrAt 6 cfg0.N = H1 (V c main_arg1) (V c main_v4) (V c main_v0) (V c main_v1) :=
  (dat0 V c).arrAt_eq_of_cover 6 (H1 (V c main_arg1) (V c main_v4) (V c main_v0) (V c main_v1))
    (fun t _ => flushed6 V c t) cover6

/-- After the 64 points the nodes' hidden layer's array holds `H0` of the entry arrays. -/
theorem final5 (c : Dev nD) :
    (dat0 V c).arrAt 5 cfg0.N = H0 (V c main_arg0) (V c main_arg1) (V c main_v0) (V c main_v1) :=
  (dat0 V c).arrAt_eq_of_cover 5 (H0 (V c main_arg0) (V c main_arg1) (V c main_v0) (V c main_v1))
    (fun t _ => flushed5 V c t) cover5

end Region

end Cert.KernelIdeal.Blocks0

end
-- ==== Proof.Blocks1.lean ====
/-
  The second pallas_call's output array as a whole-array function of the arrays it is entered with.

  Grid point t of 8 holds nodes 128·t … 128·t + 127: their hidden rows, the hidden rows of their 25 neighbours each (the
  one-hop hidden layer viewed as [1024, 25, 256]), and the two halves of the second layer's weights whole. It writes back
  rows 128·t … of the result: the log-softmax of the nodes' 41 logits. The 8 blocks tile the result.
-/
import proofs.«138670_j52664888983659_2_alg».proof.Proof.Gen.KernelIdeal.Frame
import proofs.«138670_j52664888983659_2_alg».proof.Proof.Pay
import Idealize.ShloMosaic.Lib.Pipeline.Value
import Idealize.ShloMosaic.Lib.ValueIdx

set_option maxRecDepth 16384

noncomputable section

open scoped BigOperators

namespace Cert.KernelIdeal.Blocks1

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

/-- The result as one array: from the nodes' hidden layer, the one-hop hidden layer grouped by 25, and the two halves of
    the second layer's weights. -/
def OUT (h0 : S1024x256.Idx → EReal) (h1 : S1024x25x256.Idx → EReal) (wa wb : S256x41.Idx → EReal) : S1024x41.Idx → EReal :=
  fun i => logSoftmaxRow (fun c' => sage (fun k : Fin 256 => h0 (ix2 (⟨(i 0).val, (i 0).isLt⟩ : Fin 1024) k))
      (fun k => ∑ t : Fin 25, h1 (ix3 (⟨(i 0).val, (i 0).isLt⟩ : Fin 1024) t k)) w25
      (fun k => wa (ix2 k c')) (fun k => wb (ix2 k c'))) (⟨(i 1).val, (i 1).isLt⟩ : Fin 41)

theorem hz2 : (![0, 0] : Fin 2 → Nat) = fun _ => 0 := funext fun a => by fin_cases a <;> rfl
theorem hz3 : (![0, 0, 0] : Fin 3 → Nat) = fun _ => 0 := funext fun a => by fin_cases a <;> rfl

/-- A block's result rows are the array's, when the block's loads are the arrays' rows from row `128·T` on. -/
theorem pay1_block (x0 : Vec Ideal S128x256 .f32) (x1 : Vec Ideal S128x25x256 .f32) (x2 x3 : Vec Ideal S256x41 .f32)
    (h0 : S1024x256.Idx → EReal) (h1 : S1024x25x256.Idx → EReal) (wa wb : S256x41.Idx → EReal)
    (T : ℕ) (hT : T < 8)
    (e0 : ∀ (r : Fin 128) (k : Fin 256), x0 (ix2 r k) = h0 (ix2 (⟨T * 128 + r.val, by have := r.isLt; omega⟩ : Fin 1024) k))
    (e1 : ∀ (r : Fin 128) (s : Fin 25) (k : Fin 256), x1 (ix3 r s k) = h1 (ix3 (⟨T * 128 + r.val, by have := r.isLt; omega⟩ : Fin 1024) s k))
    (e2 : ∀ (k : Fin 256) (q : Fin 41), x2 (ix2 k q) = wa (ix2 k q))
    (e3 : ∀ (k : Fin 256) (q : Fin 41), x3 (ix2 k q) = wb (ix2 k q))
    (j : S128x41.Idx) (i : S1024x41.Idx) (hi0 : (i 0).val = T * 128 + (j 0).val) (hi1 : (i 1).val = (j 1).val) :
    k1_pay1 (F := Ideal) x0 x1 x2 x3 j = OUT h0 h1 wa wb i := by
  obtain ⟨r, q, rfl⟩ : ∃ (r : Fin 128) (q : Fin 41), j = ix2 r q := ⟨j 0, j 1, eq_ix2 j⟩
  have f0 : (⟨(i 0).val, (i 0).isLt⟩ : Fin 1024) = ⟨T * 128 + r.val, by have := r.isLt; omega⟩ := Fin.ext hi0
  have f1 : (⟨(i 1).val, (i 1).isLt⟩ : Fin 41) = q := Fin.ext hi1
  rw [pay1_apply]
  unfold OUT
  rw [f0, f1]
  simp only [e0, e1, e2, e3]

section Region

variable (V : (c : Dev nD) → (b : Ref sig .tc) → Buf (Elt Ideal) ((c : Thread nD τ).loc b))

/-- The index maps over the 8 grid points: the row-blocked windows move with the point, the weights stay. -/
theorem idx1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tlt (t : Fin cfg1.N) : t.val < 8 := by have h : cfg1.N = 8 := N_1; have := t.isLt; omega

/-- The nodes' hidden block at point t is rows 128·t … of the nodes' hidden layer. -/
theorem rd0 (c : Dev nD) (t : Fin cfg1.N) (r : Fin 128) (k : Fin 256) :
    (iblk1 V c 0 t : Vec Ideal S128x256 .f32) (ix2 r k)
      = (V c main_v5_0 : S1024x256.Idx → EReal) (ix2 (⟨t.val * 128 + r.val, by have := tlt t; have := r.isLt; omega⟩ : Fin 1024) k) := by
  obtain ⟨e00, e01, -⟩ := idx1 t
  show (V c main_v5_0 : S1024x256.Idx → EReal) (((cfg1.win 0).blk t).view.emb (ix2 r k)) = _
  refine congrArg _ (funext fun a => Fin.ext ?_)
  match a with
  | ⟨0, _⟩ => show win1_0.index t (0 : Fin 2) * 128 + 1 * r.val = t.val * 128 + r.val; omega
  | ⟨1, _⟩ => show win1_0.index t (1 : Fin 2) * 256 + 1 * k.val = k.val; omega

/-- The neighbours' hidden block at point t is rows 128·t … of the grouped one-hop hidden layer. -/
theorem rd1 (c : Dev nD) (t : Fin cfg1.N) (r : Fin 128) (s : Fin 25) (k : Fin 256) :
    (iblk1 V c 1 t : Vec Ideal S128x25x256 .f32) (ix3 r s k)
      = (V c main_v6 : S1024x25x256.Idx → EReal) (ix3 (⟨t.val * 128 + r.val, by have := tlt t; have := r.isLt; omega⟩ : Fin 1024) s k) := by
  obtain ⟨-, -, e10, e11, e12, -⟩ := idx1 t
  show (V c main_v6 : S1024x25x256.Idx → EReal) (((cfg1.win 1).blk t).view.emb (ix3 r s k)) = _
  refine congrArg _ (funext fun a => Fin.ext ?_)
  match a with
  | ⟨0, _⟩ => show win1_1.index t (0 : Fin 3) * 128 + 1 * r.val = t.val * 128 + r.val; omega
  | ⟨1, _⟩ => show win1_1.index t (1 : Fin 3) * 25 + 1 * s.val = s.val; omega
  | ⟨2, _⟩ => show win1_1.index t (2 : Fin 3) * 256 + 1 * k.val = k.val; omega

/-- The self weights' block is the whole array at every point. -/
theorem rd2 (c : Dev nD) (t : Fin cfg1.N) (k : Fin 256) (q : Fin 41) :
    (iblk1 V c 2 t : Vec Ideal S256x41 .f32) (ix2 k q) = (V c main_v2 : S256x41.Idx → EReal) (ix2 k q) := by
  obtain ⟨-, -, -, -, -, e20, e21, -⟩ := idx1 t
  show (V c main_v2 : S256x41.Idx → EReal) (((cfg1.win 2).blk t).view.emb (ix2 k q)) = _
  refine congrArg _ (funext fun a => Fin.ext ?_)
  match a with
  | ⟨0, _⟩ => show win1_2.index t (0 : Fin 2) * 256 + 1 * k.val = k.val; omega
  | ⟨1, _⟩ => show win1_2.index t (1 : Fin 2) * 41 + 1 * q.val = q.val; omega

/-- The neighbour weights' block is the whole array at every point. -/
theorem rd3 (c : Dev nD) (t : Fin cfg1.N) (k : Fin 256) (q : Fin 41) :
    (iblk1 V c 3 t : Vec Ideal S256x41 .f32) (ix2 k q) = (V c main_v3 : S256x41.Idx → EReal) (ix2 k q) := by
  obtain ⟨-, -, -, -, -, -, -, e30, e31, -⟩ := idx1 t
  show (V c main_v3 : S256x41.Idx → EReal) (((cfg1.win 3).blk t).view.emb (ix2 k q)) = _
  refine congrArg _ (funext fun a => Fin.ext ?_)
  match a with
  | ⟨0, _⟩ => show win1_3.index t (0 : Fin 2) * 256 + 1 * k.val = k.val; omega
  | ⟨1, _⟩ => show win1_3.index t (1 : Fin 2) * 41 + 1 * q.val = q.val; omega

/-- What point t writes back to the result is block t of `OUT` of the entry arrays. -/
theorem flushed4 (c : Dev nD) (t : Fin cfg1.N) :
    (dat1 V c).flushed 4 t = ((cfg1.win 4).blk t).view.read (Elt Ideal)
      (OUT (V c main_v5_0) (V c main_v6) (V c main_v2) (V c main_v3)) := by
  obtain ⟨-, -, -, -, -, -, -, -, -, e40, e41⟩ := idx1 t
  show (cfg1.win 4).cut (grid1.coords t) ((dat1 V c).after 4 t) = _
  rw [after1_4]
  unfold out1_4
  rw [View.canon_unit_zero hz2]
  simp only [View.ld_unit_zero (S := S128x256) hz2, View.ld_unit_zero (S := S256x41) hz2, View.ld_unit_zero (S := S128x25x256) hz3]
  funext j
  show k1_pay1 (F := Ideal) (iblk1 V c 0 t) (iblk1 V c 1 t) (iblk1 V c 2 t) (iblk1 V c 3 t) j
    = OUT (V c main_v5_0) (V c main_v6) (V c main_v2) (V c main_v3) (((cfg1.win 4).blk t).view.emb j)
  refine pay1_block (iblk1 V c 0 t) (iblk1 V c 1 t) (iblk1 V c 2 t) (iblk1 V c 3 t)
    (V c main_v5_0) (V c main_v6) (V c main_v2) (V c main_v3) t.val (tlt t)
    (rd0 V c t) (rd1 V c t) (rd2 V c t) (rd3 V c t) j (((cfg1.win 4).blk t).view.emb j) ?_ ?_
  · show win1_4.index t (0 : Fin 2) * 128 + 1 * (j 0).val = t.val * 128 + (j 0).val; omega
  · show win1_4.index t (1 : Fin 2) * 41 + 1 * (j 1).val = (j 1).val; omega

/-- Every entry of the result is in the block of the point its row falls to. -/
theorem cover4 (i : S1024x41.Idx) :
    ∃ t : Fin cfg1.N, (cfg1.win 4).flush t = true ∧ i ∈ ((cfg1.win 4).blk t).view.set := by
  have hN : cfg1.N = 8 := N_1
  have hi0 : (i 0).val < 1024 := (i 0).isLt
  have hi1 : (i 1).val < 41 := (i 1).isLt
  obtain ⟨t, ht⟩ : ∃ t : Fin cfg1.N, t.val = (i 0).val / 128 := ⟨⟨(i 0).val / 128, by omega⟩, rfl⟩
  obtain ⟨-, -, -, -, -, -, -, -, -, e40, e41⟩ := idx1 t
  refine ⟨t, flush1_4 t, ?_⟩
  show i ∈ ((View.whole main_v7).slice (win1_4.rect t)).set
  rw [View.set_slice_whole, Rect.mem_set_unit]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 41 ≤ (i 1).val ∧ (i 1).val < win1_4.index t (1 : Fin 2) * 41 + 41; omega

/-- After the 8 points the result array holds `OUT` of the entry arrays. -/
theorem final4 (c : Dev nD) :
    (dat1 V c).arrAt 4 cfg1.N = OUT (V c main_v5_0) (V c main_v6) (V c main_v2) (V c main_v3) :=
  (dat1 V c).arrAt_eq_of_cover 4 (OUT (V c main_v5_0) (V c main_v6) (V c main_v2) (V c main_v3))
    (fun t _ => flushed4 V c t) cover4

end Region

end Cert.KernelIdeal.Blocks1

end
-- ==== Proof.KValue.lean ====
/-
  The idealized kernel's result at an entry, as a function of the five argument arrays.

  Before the first pallas_call the host cuts each stacked weight matrix into its upper and lower halves and views the
  two-hop features as [25600, 10, 602]; between the calls it views the one-hop hidden layer as [1024, 25, 256]. A slice
  read at (k, q) is the matrix at row k, or at row D + k for the lower half; a row-major regrouping read at (n, s, k) is the
  array at row n·S + s. So the first call leaves the two hidden layers of the specification, and the second the
  log-softmax of the second layer's logits over them.
-/
import proofs.«138670_j52664888983659_2_alg».proof.Proof.Blocks0
import proofs.«138670_j52664888983659_2_alg».proof.Proof.Blocks1
import Idealize.ShloMosaic.Lib.StableHlo.Run
import Idealize.ShloMosaic.Lib.Pipeline.Value

set_option maxRecDepth 16384

noncomputable section

open scoped BigOperators

namespace Cert.KernelIdeal.KValue

open Cert.KernelIdeal Cert.KernelIdeal.Gen Cert.KernelIdeal.Blocks0 Cert.KernelIdeal.Blocks1 Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The contents the first call is entered with -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_v0 (c : Dev nD) : (V1 m ρ c main_v0 : S602x256.Idx → EReal)
    = extractStridedSlice S602x256 ![0, 0] (m ((c : Thread nD τ).loc main_arg3) : S1204x256.Idx → EReal) slices_S1204x256_S602x256_0_0 := by
  show StableHlo.after hostOps0 (W0 m ρ c) (Proc.devRef .tc main_v0) = _
  after_results
theorem V1_v1 (c : Dev nD) : (V1 m ρ c main_v1 : S602x256.Idx → EReal)
    = extractStridedSlice S602x256 ![602, 0] (m ((c : Thread nD τ).loc main_arg3) : S1204x256.Idx → EReal) slices_S1204x256_S602x256_602_0 := by
  show StableHlo.after hostOps0 (W0 m ρ c) (Proc.devRef .tc main_v1) = _
  after_results
theorem V1_v2 (c : Dev nD) : (V1 m ρ c main_v2 : S256x41.Idx → EReal)
    = extractStridedSlice S256x41 ![0, 0] (m ((c : Thread nD τ).loc main_arg4) : S512x41.Idx → EReal) slices_S512x41_S256x41_0_0 := by
  show StableHlo.after hostOps0 (W0 m ρ c) (Proc.devRef .tc main_v2) = _
  after_results
theorem V1_v3 (c : Dev nD) : (V1 m ρ c main_v3 : S256x41.Idx → EReal)
    = extractStridedSlice S256x41 ![256, 0] (m ((c : Thread nD τ).loc main_arg4) : S512x41.Idx → EReal) slices_S512x41_S256x41_256_0 := by
  show StableHlo.after hostOps0 (W0 m ρ c) (Proc.devRef .tc main_v3) = _
  after_results
theorem V1_v4 (c : Dev nD) : (V1 m ρ c main_v4 : S25600x10x602.Idx → EReal)
    = shapeCast S25600x10x602 (m ((c : Thread nD τ).loc main_arg2) : S256000x602.Idx → EReal) shapeCasts_S256000x602_S25600x10x602 := by
  show StableHlo.after hostOps0 (W0 m ρ c) (Proc.devRef .tc main_v4) = _
  after_results; rfl

/-! ## Slices and regroupings read at an entry -/

theorem lo602_apply {α : Type} (x : S1204x256.Idx → α) (k : Fin 602) (q : Fin 256) :
    extractStridedSlice S602x256 ![0, 0] x slices_S1204x256_S602x256_0_0 (ix2 k q) = x (ix2 (lo602 k) q) :=
  extractStridedSlice_apply _ _ _ (ix2 k q) (ix2 (lo602 k) q) fun a => by
    match a with
    | ⟨0, _⟩ => show k.val = 0 + k.val; omega
    | ⟨1, _⟩ => show q.val = 0 + q.val; omega
theorem hi602_apply {α : Type} (x : S1204x256.Idx → α) (k : Fin 602) (q : Fin 256) :
    extractStridedSlice S602x256 ![602, 0] x slices_S1204x256_S602x256_602_0 (ix2 k q) = x (ix2 (hi602 k) q) :=
  extractStridedSlice_apply _ _ _ (ix2 k q) (ix2 (hi602 k) q) fun a => by
    match a with
    | ⟨0, _⟩ => show 602 + k.val = 602 + k.val; rfl
    | ⟨1, _⟩ => show q.val = 0 + q.val; omega
theorem lo256_apply {α : Type} (x : S512x41.Idx → α) (k : Fin 256) (q : Fin 41) :
    extractStridedSlice S256x41 ![0, 0] x slices_S512x41_S256x41_0_0 (ix2 k q) = x (ix2 (lo256 k) q) :=
  extractStridedSlice_apply _ _ _ (ix2 k q) (ix2 (lo256 k) q) fun a => by
    match a with
    | ⟨0, _⟩ => show k.val = 0 + k.val; omega
    | ⟨1, _⟩ => show q.val = 0 + q.val; omega
theorem hi256_apply {α : Type} (x : S512x41.Idx → α) (k : Fin 256) (q : Fin 41) :
    extractStridedSlice S256x41 ![256, 0] x slices_S512x41_S256x41_256_0 (ix2 k q) = x (ix2 (hi256 k) q) :=
  extractStridedSlice_apply _ _ _ (ix2 k q) (ix2 (hi256 k) q) fun a => by
    match a with
    | ⟨0, _⟩ => show 256 + k.val = 256 + k.val; rfl
    | ⟨1, _⟩ => show q.val = 0 + q.val; omega
theorem group10_apply {α : Type} (x : S256000x602.Idx → α) (n : Fin 25600) (s : Fin 10) (k : Fin 602) :
    shapeCast S25600x10x602 x shapeCasts_S256000x602_S25600x10x602 (ix3 n s k) = x (ix2 (row10 n s) k) :=
  shapeCast_apply x _ (ix3 n s k) (ix2 (row10 n s) k) (by
    rewrite [Shape.rowMajor_val_two, Shape.rowMajor_val_three]
    show (n.val * 10 + s.val) * 602 + k.val = (n.val * 10 + s.val) * 602 + k.val
    rfl)
theorem group25_apply {α : Type} (x : S25600x256.Idx → α) (b : Fin 1024) (s : Fin 25) (k : Fin 256) :
    shapeCast S1024x25x256 x shapeCasts_S25600x256_S1024x25x256 (ix3 b s k) = x (ix2 (row25 b s) k) :=
  shapeCast_apply x _ (ix3 b s k) (ix2 (row25 b s) k) (by
    rewrite [Shape.rowMajor_val_two, Shape.rowMajor_val_three]
    show (b.val * 25 + s.val) * 256 + k.val = (b.val * 25 + s.val) * 256 + k.val
    rfl)

/-! ## The whole-array functions read at an entry -/

theorem H0_ix (a0 : S1024x602.Idx → EReal) (a1 : S25600x602.Idx → EReal) (wa wb : S602x256.Idx → EReal) (b : Fin 1024) (o : Fin 256) :
    H0 a0 a1 wa wb (ix2 b o)
      = max (sage (fun k : Fin 602 => a0 (ix2 b k)) (fun k => ∑ t : Fin 25, a1 (ix2 (row25 b t) k)) w25
          (fun k => wa (ix2 k o)) (fun k => wb (ix2 k o))) w0 := rfl
theorem H1_ix (a1 : S25600x602.Idx → EReal) (a2 : S25600x10x602.Idx → EReal) (wa wb : S602x256.Idx → EReal) (n : Fin 25600) (o : Fin 256) :
    H1 a1 a2 wa wb (ix2 n o)
      = max (sage (fun k : Fin 602 => a1 (ix2 n k)) (fun k => ∑ t : Fin 10, a2 (ix3 n t k)) w10
          (fun k => wa (ix2 k o)) (fun k => wb (ix2 k o))) w0 := rfl
theorem OUT_ix (h0 : S1024x256.Idx → EReal) (h1 : S1024x25x256.Idx → EReal) (wa wb : S256x41.Idx → EReal) (b : Fin 1024) (cc : Fin 41) :
    OUT h0 h1 wa wb (ix2 b cc)
      = logSoftmaxRow (fun c' => sage (fun k : Fin 256 => h0 (ix2 b k)) (fun k => ∑ t : Fin 25, h1 (ix3 b t k)) w25
          (fun k => wa (ix2 k c')) (fun k => wb (ix2 k c'))) cc := rfl

/-! ## The two hidden layers the first call leaves -/

/-- The nodes' hidden layer after the first call, at node `b` and feature `o`. -/
theorem h0_apply (c : Dev nD) (b : Fin 1024) (o : Fin 256) :
    (W2 m ρ c (Proc.devRef .tc main_v5_0) : S1024x256.Idx → EReal) (ix2 b o)
      = max (sage (fun k : Fin 602 => (m ((c : Thread nD τ).loc main_arg0) : S1024x602.Idx → EReal) (ix2 b k))
          (fun k => ∑ t : Fin 25, (m ((c : Thread nD τ).loc main_arg1) : S25600x602.Idx → EReal) (ix2 (row25 b t) k)) w25
          (fun k => (m ((c : Thread nD τ).loc main_arg3) : S1204x256.Idx → EReal) (ix2 (lo602 k) o))
          (fun k => (m ((c : Thread nD τ).loc main_arg3) : S1204x256.Idx → EReal) (ix2 (hi602 k) o))) w0 := by
  have e : (W2 m ρ c (Proc.devRef .tc main_v5_0) : S1024x256.Idx → EReal)
      = H0 (V1 m ρ c main_arg0) (V1 m ρ c main_arg1) (V1 m ρ c main_v0) (V1 m ρ c main_v1) :=
    (W2_arr m ρ c 5).trans (final5 (V1 m ρ) c)
  rw [e, H0_ix, V1_arg0, V1_arg1, V1_v0, V1_v1]
  simp only [lo602_apply, hi602_apply]

/-- The one-hop hidden layer after the first call, at row `n` and feature `o`. -/
theorem h1_apply (c : Dev nD) (n : Fin 25600) (o : Fin 256) :
    (W2 m ρ c (Proc.devRef .tc main_v5_1) : S25600x256.Idx → EReal) (ix2 n o)
      = max (sage (fun k : Fin 602 => (m ((c : Thread nD τ).loc main_arg1) : S25600x602.Idx → EReal) (ix2 n k))
          (fun k => ∑ t : Fin 10, (m ((c : Thread nD τ).loc main_arg2) : S256000x602.Idx → EReal) (ix2 (row10 n t) k)) w10
          (fun k => (m ((c : Thread nD τ).loc main_arg3) : S1204x256.Idx → EReal) (ix2 (lo602 k) o))
          (fun k => (m ((c : Thread nD τ).loc main_arg3) : S1204x256.Idx → EReal) (ix2 (hi602 k) o))) w0 := by
  have e : (W2 m ρ c (Proc.devRef .tc main_v5_1) : S25600x256.Idx → EReal)
      = H1 (V1 m ρ c main_arg1) (V1 m ρ c main_v4) (V1 m ρ c main_v0) (V1 m ρ c main_v1) :=
    (W2_arr m ρ c 6).trans (final6 (V1 m ρ) c)
  rw [e, H1_ix, V1_arg1, V1_v4, V1_v0, V1_v1]
  simp only [lo602_apply, hi602_apply, group10_apply]

/-! ## The contents the second call is entered with -/

theorem V3_v5_0 (c : Dev nD) : V3 m ρ c main_v5_0 = W2 m ρ c (Proc.devRef .tc main_v5_0) := by
  show StableHlo.after hostOps1 (W2 m ρ c) (Proc.devRef .tc main_v5_0) = _
  after_results
theorem V3_v6 (c : Dev nD) : (V3 m ρ c main_v6 : S1024x25x256.Idx → EReal)
    = shapeCast S1024x25x256 (W2 m ρ c (Proc.devRef .tc main_v5_1) : S25600x256.Idx → EReal) shapeCasts_S25600x256_S1024x25x256 := by
  show StableHlo.after hostOps1 (W2 m ρ c) (Proc.devRef .tc main_v6) = _
  after_results; rfl
theorem V3_v2 (c : Dev nD) : (V3 m ρ c main_v2 : S256x41.Idx → EReal)
    = extractStridedSlice S256x41 ![0, 0] (m ((c : Thread nD τ).loc main_arg4) : S512x41.Idx → EReal) slices_S512x41_S256x41_0_0 := by
  have e : V3 m ρ c main_v2 = W2 m ρ c (Proc.devRef .tc main_v2) := by
    show StableHlo.after hostOps1 (W2 m ρ c) (Proc.devRef .tc main_v2) = _
    after_results
  rw [e, W2_of_ne m ρ c main_v2 (by decide)]
  exact V1_v2 m ρ c
theorem V3_v3 (c : Dev nD) : (V3 m ρ c main_v3 : S256x41.Idx → EReal)
    = extractStridedSlice S256x41 ![256, 0] (m ((c : Thread nD τ).loc main_arg4) : S512x41.Idx → EReal) slices_S512x41_S256x41_256_0 := by
  have e : V3 m ρ c main_v3 = W2 m ρ c (Proc.devRef .tc main_v3) := by
    show StableHlo.after hostOps1 (W2 m ρ c) (Proc.devRef .tc main_v3) = _
    after_results
  rw [e, W2_of_ne m ρ c main_v3 (by decide)]
  exact V1_v3 m ρ c

/-! ## The result -/

/-- The result after the second call, at node `b` and class `cc`, over the two hidden layers the first call left. -/
theorem out_apply (c : Dev nD) (b : Fin 1024) (cc : Fin 41) :
    (W4 m ρ c (Proc.devRef .tc main_v7) : S1024x41.Idx → EReal) (ix2 b cc)
      = logSoftmaxRow (fun c' => sage
          (fun k : Fin 256 => (W2 m ρ c (Proc.devRef .tc main_v5_0) : S1024x256.Idx → EReal) (ix2 b k))
          (fun k => ∑ t : Fin 25, (W2 m ρ c (Proc.devRef .tc main_v5_1) : S25600x256.Idx → EReal) (ix2 (row25 b t) k)) w25
          (fun k => (m ((c : Thread nD τ).loc main_arg4) : S512x41.Idx → EReal) (ix2 (lo256 k) c'))
          (fun k => (m ((c : Thread nD τ).loc main_arg4) : S512x41.Idx → EReal) (ix2 (hi256 k) c'))) cc := by
  have e : (W4 m ρ c (Proc.devRef .tc main_v7) : S1024x41.Idx → EReal)
      = OUT (V3 m ρ c main_v5_0) (V3 m ρ c main_v6) (V3 m ρ c main_v2) (V3 m ρ c main_v3) :=
    (W4_arr m ρ c 4).trans (final4 (V3 m ρ) c)
  rw [e, OUT_ix, V3_v5_0, V3_v6, V3_v2, V3_v3]
  generalize (W2 m ρ c (Proc.devRef .tc main_v5_0) : S1024x256.Idx → EReal) = K0
  generalize (W2 m ρ c (Proc.devRef .tc main_v5_1) : S25600x256.Idx → EReal) = K1
  simp only [lo256_apply, hi256_apply, group25_apply]

end Cert.KernelIdeal.KValue

end
-- ==== Proof.RefValue.lean ====
/-
  The reference's three layers read at an entry, on the extended reals.

  The reference joins a node's own features and the mean of its neighbours' features into one row of twice the width
  and multiplies it with the stacked weight matrix: a sum over the joined row splits into the sum over its first half
  (the self features against the upper weight rows) and the sum over its second half (the mean against the lower weight
  rows). The hidden layers are followed by a maximum with zero, the last layer by a log-softmax over the 41 classes.
-/
import proofs.«138670_j52664888983659_2_alg».proof.Proof.RefRead
import proofs.«138670_j52664888983659_2_alg».proof.Proof.Spec
import Idealize.ShloMosaic.PureOps.Ideal.Laws
import Idealize.ShloMosaic.Lib.ValueIdx
import Idealize.ShloMosaic.Lib.Pipeline.Value

noncomputable section

open scoped BigOperators

namespace Cert.RefValue

open Cert.ReferenceIdeal Cert.ReferenceIdeal.Read Cert.Spec Idealize.ShloMosaic Idealize.ShloMosaic.ValueIdx

/-- A sum over a row of 1204 entries is the sum over its first 602 plus the sum over its last 602. -/
private theorem sum_split602 (f : Fin 1204 → EReal) :
    ∑ k : Fin 1204, f k = (∑ k : Fin 602, f (lo602 k)) + ∑ k : Fin 602, f (hi602 k) :=
  Fin.sum_univ_add (a := 602) (b := 602) f

/-- A sum over a row of 512 entries is the sum over its first 256 plus the sum over its last 256. -/
private theorem sum_split256 (f : Fin 512 → EReal) :
    ∑ k : Fin 512, f k = (∑ k : Fin 256, f (lo256 k)) + ∑ k : Fin 256, f (hi256 k) :=
  Fin.sum_univ_add (a := 256) (b := 256) f

/-- The first half of a node's joined row is the node's own feature row. -/
private theorem joinedRow0_self (x0 : (⟨S1024x602, .f32⟩ : BufTy).Contents (Elt Ideal)) (x1 : (⟨S25600x602, .f32⟩ : BufTy).Contents (Elt Ideal))
    (b : Fin 1024) (k : Fin 602) :
    val_main_v4 (F := Ideal) x0 x1 (ix2 b (lo602 k)) = x0 (ix2 b k) := by
  unfold val_main_v4
  exact concatenate_pair_apply_left _ x0 _ _ (ix2 b (lo602 k)) rfl (ix2 b k)
    (fun c => by match c with | ⟨0, _⟩ => rfl | ⟨1, _⟩ => rfl)

/-- The second half of a node's joined row is the mean row of its neighbours. -/
private theorem joinedRow0_mean (x0 : (⟨S1024x602, .f32⟩ : BufTy).Contents (Elt Ideal)) (x1 : (⟨S25600x602, .f32⟩ : BufTy).Contents (Elt Ideal))
    (b : Fin 1024) (k : Fin 602) :
    val_main_v4 (F := Ideal) x0 x1 (ix2 b (hi602 k)) = val_main_v3 (F := Ideal) x1 (ix2 b k) := by
  unfold val_main_v4
  generalize val_main_v3 (F := Ideal) x1 = y
  exact concatenate_pair_apply_right _ x0 y _ (ix2 b (hi602 k)) rfl rfl (ix2 b k)
    (fun c hc => by match c with | ⟨0, _⟩ => rfl | ⟨1, _⟩ => exact absurd rfl hc)
    (by show k.val + 602 = 602 + k.val; omega)

/-- The mean row of a node's 25 neighbours: their sum over twenty-five. -/
private theorem mean25_features (x1 : (⟨S25600x602, .f32⟩ : BufTy).Contents (Elt Ideal)) (b : Fin 1024) (k : Fin 602) :
    val_main_v3 (F := Ideal) x1 (ix2 b k) = Ideal.div (∑ t : Fin 25, x1 (ix2 (row25 b t) k)) w25 := by
  rw [val_main_v3_apply, val_main_v1_apply, val_main_v2_apply, val_main_cst_apply, val_main_cst_0_apply]
  simp only [Ideal.hostDivf_def, Ideal.ofBits_def, Ideal.ofBits_zero_f32, zero_add]
  refine congrArg (fun z => Ideal.div z w25) (Finset.sum_congr rfl fun t _ => ?_)
  rw [val_main_v0_apply]
  refine congrArg x1 (funext fun a => Fin.ext ?_)
  have hk := k.isLt
  match a with
  | ⟨0, _⟩ => show ((b.val * 25 + t.val) * 602 + k.val) / 602 = b.val * 25 + t.val; omega
  | ⟨1, _⟩ => show ((b.val * 25 + t.val) * 602 + k.val) % 602 = k.val; omega

/-- The hidden layer of node `b` at feature `o`. -/
theorem h0_apply (x0 : (⟨S1024x602, .f32⟩ : BufTy).Contents (Elt Ideal)) (x1 : (⟨S25600x602, .f32⟩ : BufTy).Contents (Elt Ideal))
    (x3 : (⟨S1204x256, .f32⟩ : BufTy).Contents (Elt Ideal)) (b : Fin 1024) (o : Fin 256) :
    val_main_v12 (F := Ideal) x0 x1 x3 (ix2 b o)
      = max (sage (fun k : Fin 602 => x0 (ix2 b k)) (fun k => ∑ t : Fin 25, x1 (ix2 (row25 b t) k)) w25
          (fun k => x3 (ix2 (lo602 k) o)) (fun k => x3 (ix2 (hi602 k) o))) w0 := by
  rw [val_main_v12_apply, val_main_v5_apply, val_main_call0_v0_apply, val_main_call0_cst_apply]
  simp only [Ideal.maximumf_def, Ideal.ofBits_def]
  refine congrArg (fun z => max z w0) ?_
  rw [sum_split602]
  unfold sage
  refine congrArg₂ (· + ·) (Finset.sum_congr rfl fun k _ => ?_) (Finset.sum_congr rfl fun k _ => ?_)
  · have el : lidx_main_v5 (ix2 b o) (lo602 k) = ix2 b (lo602 k) :=
      funext fun a => Fin.ext (by match a with | ⟨0, _⟩ => rfl | ⟨1, _⟩ => rfl)
    have er : ridx_main_v5 (ix2 b o) (lo602 k) = ix2 (lo602 k) o :=
      funext fun a => Fin.ext (by match a with | ⟨0, _⟩ => rfl | ⟨1, _⟩ => rfl)
    rw [el, er, joinedRow0_self]
  · have el : lidx_main_v5 (ix2 b o) (hi602 k) = ix2 b (hi602 k) :=
      funext fun a => Fin.ext (by match a with | ⟨0, _⟩ => rfl | ⟨1, _⟩ => rfl)
    have er : ridx_main_v5 (ix2 b o) (hi602 k) = ix2 (hi602 k) o :=
      funext fun a => Fin.ext (by match a with | ⟨0, _⟩ => rfl | ⟨1, _⟩ => rfl)
    rw [el, er, joinedRow0_mean, mean25_features]

/-- The first half of a one-hop row's joined row is the row's own features. -/
private theorem joinedRow1_self (x1 : (⟨S25600x602, .f32⟩ : BufTy).Contents (Elt Ideal)) (x2 : (⟨S256000x602, .f32⟩ : BufTy).Contents (Elt Ideal))
    (n : Fin 25600) (k : Fin 602) :
    val_main_v10 (F := Ideal) x1 x2 (ix2 n (lo602 k)) = x1 (ix2 n k) := by
  unfold val_main_v10
  exact concatenate_pair_apply_left _ x1 _ _ (ix2 n (lo602 k)) rfl (ix2 n k)
    (fun c => by match c with | ⟨0, _⟩ => rfl | ⟨1, _⟩ => rfl)

/-- The second half of a one-hop row's joined row is the mean row of its neighbours. -/
private theorem joinedRow1_mean (x1 : (⟨S25600x602, .f32⟩ : BufTy).Contents (Elt Ideal)) (x2 : (⟨S256000x602, .f32⟩ : BufTy).Contents (Elt Ideal))
    (n : Fin 25600) (k : Fin 602) :
    val_main_v10 (F := Ideal) x1 x2 (ix2 n (hi602 k)) = val_main_v9 (F := Ideal) x2 (ix2 n k) := by
  unfold val_main_v10
  generalize val_main_v9 (F := Ideal) x2 = y
  exact concatenate_pair_apply_right _ x1 y _ (ix2 n (hi602 k)) rfl rfl (ix2 n k)
    (fun c hc => by match c with | ⟨0, _⟩ => rfl | ⟨1, _⟩ => exact absurd rfl hc)
    (by show k.val + 602 = 602 + k.val; omega)

/-- The mean row of a one-hop row's 10 neighbours: their sum over ten. -/
private theorem mean10_features (x2 : (⟨S256000x602, .f32⟩ : BufTy).Contents (Elt Ideal)) (n : Fin 25600) (k : Fin 602) :
    val_main_v9 (F := Ideal) x2 (ix2 n k) = Ideal.div (∑ t : Fin 10, x2 (ix2 (row10 n t) k)) w10 := by
  rw [val_main_v9_apply, val_main_v7_apply, val_main_v8_apply, val_main_cst_1_apply, val_main_cst_2_apply]
  simp only [Ideal.hostDivf_def, Ideal.ofBits_def, Ideal.ofBits_zero_f32, zero_add]
  refine congrArg (fun z => Ideal.div z w10) (Finset.sum_congr rfl fun t _ => ?_)
  rw [val_main_v6_apply]
  refine congrArg x2 (funext fun a => Fin.ext ?_)
  have hk := k.isLt
  match a with
  | ⟨0, _⟩ => show ((n.val * 10 + t.val) * 602 + k.val) / 602 = n.val * 10 + t.val; omega
  | ⟨1, _⟩ => show ((n.val * 10 + t.val) * 602 + k.val) % 602 = k.val; omega

/-- The hidden layer of one-hop row `n` at feature `o`. -/
theorem h1_apply (x1 : (⟨S25600x602, .f32⟩ : BufTy).Contents (Elt Ideal)) (x2 : (⟨S256000x602, .f32⟩ : BufTy).Contents (Elt Ideal))
    (x3 : (⟨S1204x256, .f32⟩ : BufTy).Contents (Elt Ideal)) (n : Fin 25600) (o : Fin 256) :
    val_main_v13 (F := Ideal) x1 x2 x3 (ix2 n o)
      = max (sage (fun k : Fin 602 => x1 (ix2 n k)) (fun k => ∑ t : Fin 10, x2 (ix2 (row10 n t) k)) w10
          (fun k => x3 (ix2 (lo602 k) o)) (fun k => x3 (ix2 (hi602 k) o))) w0 := by
  rw [val_main_v13_apply, val_main_v11_apply, val_main_call1_v0_apply, val_main_call1_cst_apply]
  simp only [Ideal.maximumf_def, Ideal.ofBits_def]
  refine congrArg (fun z => max z w0) ?_
  rw [sum_split602]
  unfold sage
  refine congrArg₂ (· + ·) (Finset.sum_congr rfl fun k _ => ?_) (Finset.sum_congr rfl fun k _ => ?_)
  · have el : lidx_main_v11 (ix2 n o) (lo602 k) = ix2 n (lo602 k) :=
      funext fun a => Fin.ext (by match a with | ⟨0, _⟩ => rfl | ⟨1, _⟩ => rfl)
    have er : ridx_main_v11 (ix2 n o) (lo602 k) = ix2 (lo602 k) o :=
      funext fun a => Fin.ext (by match a with | ⟨0, _⟩ => rfl | ⟨1, _⟩ => rfl)
    rw [el, er, joinedRow1_self]
  · have el : lidx_main_v11 (ix2 n o) (hi602 k) = ix2 n (hi602 k) :=
      funext fun a => Fin.ext (by match a with | ⟨0, _⟩ => rfl | ⟨1, _⟩ => rfl)
    have er : ridx_main_v11 (ix2 n o) (hi602 k) = ix2 (hi602 k) o :=
      funext fun a => Fin.ext (by match a with | ⟨0, _⟩ => rfl | ⟨1, _⟩ => rfl)
    rw [el, er, joinedRow1_mean, mean10_features]

/-- The first half of a node's joined hidden row is the node's own hidden row. -/
private theorem joinedHidden_self (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal)) (b : Fin 1024) (k : Fin 256) :
    val_main_v18 (F := Ideal) x0 x1 x2 x3 (ix2 b (lo256 k)) = val_main_v12 (F := Ideal) x0 x1 x3 (ix2 b k) := by
  unfold val_main_v18
  generalize val_main_v12 (F := Ideal) x0 x1 x3 = y0
  generalize val_main_v17 (F := Ideal) x1 x2 x3 = y1
  exact concatenate_pair_apply_left _ y0 y1 _ (ix2 b (lo256 k)) rfl (ix2 b k)
    (fun c => by match c with | ⟨0, _⟩ => rfl | ⟨1, _⟩ => rfl)

/-- The second half of a node's joined hidden row is the mean hidden row of its neighbours. -/
private theorem joinedHidden_mean (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal)) (b : Fin 1024) (k : Fin 256) :
    val_main_v18 (F := Ideal) x0 x1 x2 x3 (ix2 b (hi256 k)) = val_main_v17 (F := Ideal) x1 x2 x3 (ix2 b k) := by
  unfold val_main_v18
  generalize val_main_v12 (F := Ideal) x0 x1 x3 = y0
  generalize val_main_v17 (F := Ideal) x1 x2 x3 = y1
  exact concatenate_pair_apply_right _ y0 y1 _ (ix2 b (hi256 k)) rfl rfl (ix2 b k)
    (fun c hc => by match c with | ⟨0, _⟩ => rfl | ⟨1, _⟩ => exact absurd rfl hc)
    (by show k.val + 256 = 256 + k.val; omega)

/-- The mean hidden row of a node's 25 neighbours: the sum of their hidden rows over twenty-five. -/
private theorem mean25_hidden (x1 : (⟨S25600x602, .f32⟩ : BufTy).Contents (Elt Ideal)) (x2 : (⟨S256000x602, .f32⟩ : BufTy).Contents (Elt Ideal))
    (x3 : (⟨S1204x256, .f32⟩ : BufTy).Contents (Elt Ideal)) (b : Fin 1024) (k : Fin 256) :
    val_main_v17 (F := Ideal) x1 x2 x3 (ix2 b k)
      = Ideal.div (∑ t : Fin 25, val_main_v13 (F := Ideal) x1 x2 x3 (ix2 (row25 b t) k)) w25 := by
  rw [val_main_v17_apply, val_main_v15_apply, val_main_v16_apply, val_main_cst_3_apply, val_main_cst_4_apply]
  simp only [Ideal.hostDivf_def, Ideal.ofBits_def, Ideal.ofBits_zero_f32, zero_add]
  refine congrArg (fun z => Ideal.div z w25) (Finset.sum_congr rfl fun t _ => ?_)
  rw [val_main_v14_apply]
  generalize val_main_v13 (F := Ideal) x1 x2 x3 = y
  refine congrArg y (funext fun a => Fin.ext ?_)
  have hk := k.isLt
  match a with
  | ⟨0, _⟩ => show ((b.val * 25 + t.val) * 256 + k.val) / 256 = b.val * 25 + t.val; omega
  | ⟨1, _⟩ => show ((b.val * 25 + t.val) * 256 + k.val) % 256 = k.val; omega

/-- The logit of node `b` at class `c`, from the two hidden layers as arrays. -/
private theorem logit_apply (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal))
    (x4 : (⟨S512x41, .f32⟩ : BufTy).Contents (Elt Ideal)) (b : Fin 1024) (c : Fin 41) :
    val_main_v19 (F := Ideal) x0 x1 x2 x3 x4 (ix2 b c)
      = sage (fun k : Fin 256 => val_main_v12 (F := Ideal) x0 x1 x3 (ix2 b k))
          (fun k => ∑ t : Fin 25, val_main_v13 (F := Ideal) x1 x2 x3 (ix2 (row25 b t) k)) w25
          (fun k => x4 (ix2 (lo256 k) c)) (fun k => x4 (ix2 (hi256 k) c)) := by
  rw [val_main_v19_apply, sum_split256]
  unfold sage
  refine congrArg₂ (· + ·) (Finset.sum_congr rfl fun k _ => ?_) (Finset.sum_congr rfl fun k _ => ?_)
  · have el : lidx_main_v19 (ix2 b c) (lo256 k) = ix2 b (lo256 k) :=
      funext fun a => Fin.ext (by match a with | ⟨0, _⟩ => rfl | ⟨1, _⟩ => rfl)
    have er : ridx_main_v19 (ix2 b c) (lo256 k) = ix2 (lo256 k) c :=
      funext fun a => Fin.ext (by match a with | ⟨0, _⟩ => rfl | ⟨1, _⟩ => rfl)
    rw [el, er, joinedHidden_self]
  · have el : lidx_main_v19 (ix2 b c) (hi256 k) = ix2 b (hi256 k) :=
      funext fun a => Fin.ext (by match a with | ⟨0, _⟩ => rfl | ⟨1, _⟩ => rfl)
    have er : ridx_main_v19 (ix2 b c) (hi256 k) = ix2 (hi256 k) c :=
      funext fun a => Fin.ext (by match a with | ⟨0, _⟩ => rfl | ⟨1, _⟩ => rfl)
    rw [el, er, joinedHidden_mean, mean25_hidden]

/-- The maximum of node `b`'s row of logits: taken from minus infinity, and once more against minus infinity. -/
private theorem rowmax_apply (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal))
    (x4 : (⟨S512x41, .f32⟩ : BufTy).Contents (Elt Ideal)) (b : Fin 1024) :
    val_main_call2_v2 (F := Ideal) x0 x1 x2 x3 x4 (ix1 b)
      = rowMax (fun c' : Fin 41 => val_main_v19 (F := Ideal) x0 x1 x2 x3 x4 (ix2 b c')) := by
  have hR : S1024x41.Reduces [1] S1024 := by decide
  rw [val_main_call2_v2_apply, val_main_call2_v1_apply, val_main_call2_cst_0_apply]
  unfold val_main_call2_v0 rowMax
  generalize val_main_v19 (F := Ideal) x0 x1 x2 x3 x4 = y
  refine congrArg (fun z => max wNegInf z) ?_
  refine (Host.reduce_eq_fold_single (FloatOps.maximumf (F := Ideal) (φ := .f32)) y _ _ hR _ (ix1 b)).trans ?_
  have hf : (y ∘ hR.lift (ix1 b)) = fun c' : Fin 41 => y (ix2 b c') :=
    funext fun k => congrArg y (funext fun a => Fin.ext (by match a with | ⟨0, _⟩ => rfl | ⟨1, _⟩ => rfl))
  exact congrArg (fun f => Finset.fold max wNegInf f (Finset.univ : Finset (Fin 41))) hf

/-- The logit of node `b` at class `c` less its row's maximum. -/
private theorem shifted_apply (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal))
    (x4 : (⟨S512x41, .f32⟩ : BufTy).Contents (Elt Ideal)) (b : Fin 1024) (c : Fin 41) :
    val_main_call2_v5 (F := Ideal) x0 x1 x2 x3 x4 (ix2 b c)
      = val_main_v19 (F := Ideal) x0 x1 x2 x3 x4 (ix2 b c) - rowMax (fun c' : Fin 41 => val_main_v19 (F := Ideal) x0 x1 x2 x3 x4 (ix2 b c')) := by
  have e : idx_main_call2_v3 (idx_main_call2_v4 (ix2 b c)) = ix1 b :=
    funext fun a => Fin.ext (by match a with | ⟨0, _⟩ => rfl)
  rw [val_main_call2_v5_apply, val_main_call2_v4_apply, val_main_call2_v3_apply, e, rowmax_apply]
  simp only [Ideal.subf_def]

/-- The sum over the classes of the exponentials of node `b`'s shifted logits. -/
private theorem expsum_apply (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal))
    (x4 : (⟨S512x41, .f32⟩ : BufTy).Contents (Elt Ideal)) (b : Fin 1024) :
    val_main_call2_v7 (F := Ideal) x0 x1 x2 x3 x4 (ix1 b)
      = ∑ c : Fin 41, Ideal.exp (val_main_v19 (F := Ideal) x0 x1 x2 x3 x4 (ix2 b c) - rowMax (fun c' : Fin 41 => val_main_v19 (F := Ideal) x0 x1 x2 x3 x4 (ix2 b c'))) := by
  rw [val_main_call2_v7_apply, val_main_call2_cst_1_apply]
  simp only [Ideal.ofBits_def, Ideal.ofBits_zero_f32, zero_add]
  refine Finset.sum_congr rfl fun k _ => ?_
  have e : idx_main_call2_v7 (ix1 b) k = ix2 b k :=
    funext fun a => Fin.ext (by match a with | ⟨0, _⟩ => rfl | ⟨1, _⟩ => rfl)
  rw [e, val_main_call2_v6_apply, shifted_apply]
  simp only [Ideal.hostUnary_exp_def]

/-- The result at node `b` and class `c`, from the two hidden layers as arrays. -/
theorem out_apply (x0 : (⟨S1024x602, .f32⟩ : BufTy).Contents (Elt Ideal)) (x1 : (⟨S25600x602, .f32⟩ : BufTy).Contents (Elt Ideal))
    (x2 : (⟨S256000x602, .f32⟩ : BufTy).Contents (Elt Ideal)) (x3 : (⟨S1204x256, .f32⟩ : BufTy).Contents (Elt Ideal))
    (x4 : (⟨S512x41, .f32⟩ : BufTy).Contents (Elt Ideal)) (b : Fin 1024) (c : Fin 41) :
    val_main_v20 (F := Ideal) x0 x1 x2 x3 x4 (ix2 b c)
      = logSoftmaxRow (fun c' => sage (fun k : Fin 256 => val_main_v12 (F := Ideal) x0 x1 x3 (ix2 b k))
          (fun k => ∑ t : Fin 25, val_main_v13 (F := Ideal) x1 x2 x3 (ix2 (row25 b t) k)) w25
          (fun k => x4 (ix2 (lo256 k) c')) (fun k => x4 (ix2 (hi256 k) c'))) c := by
  have hz : (fun c' : Fin 41 => val_main_v19 (F := Ideal) x0 x1 x2 x3 x4 (ix2 b c'))
      = fun c' => sage (fun k : Fin 256 => val_main_v12 (F := Ideal) x0 x1 x3 (ix2 b k))
          (fun k => ∑ t : Fin 25, val_main_v13 (F := Ideal) x1 x2 x3 (ix2 (row25 b t) k)) w25
          (fun k => x4 (ix2 (lo256 k) c')) (fun k => x4 (ix2 (hi256 k) c')) :=
    funext fun c' => logit_apply x0 x1 x2 x3 x4 b c'
  have e : idx_main_call2_v8 (idx_main_call2_v10 (ix2 b c)) = ix1 b :=
    funext fun a => Fin.ext (by match a with | ⟨0, _⟩ => rfl)
  rw [← hz, val_main_v20_apply, val_main_call2_v10_apply, val_main_call2_v9_apply, val_main_call2_v8_apply, e,
    expsum_apply, shifted_apply]
  simp only [Ideal.subf_def, Ideal.hostUnary_log_def]
  unfold logSoftmaxRow
  generalize val_main_v19 (F := Ideal) x0 x1 x2 x3 x4 = y
  rfl

end Cert.RefValue

end
-- ==== Proof.lean ====
/-
  The claim: the kernel and its idealization run and keep their arguments; the idealization rewrote nothing; and at the
  ideal values the kernel's two pallas_calls and the jnp reference end with the same [1024, 41] array.

  Both programs compute a two-layer GraphSAGE with mean aggregation followed by a log-softmax. The kernel multiplies the
  self features with the upper half of each stacked weight matrix and the neighbours' mean with the lower half and adds
  the two products; the reference joins the two rows and multiplies once with the stacked matrix. A finite sum over the
  joined row is the sum over its first half plus the sum over its second half on the extended reals, with no condition
  on the terms, so the two agree entry by entry: first the two hidden layers as arrays, then the result over them.
-/
import proofs.«138670_j52664888983659_2_alg».proof.Defs
import proofs.«138670_j52664888983659_2_alg».proof.Proof.Gen.Kernel
import proofs.«138670_j52664888983659_2_alg».proof.Proof.Gen.Kernel.Skeleton
import proofs.«138670_j52664888983659_2_alg».proof.Proof.Gen.Kernel.Launch
import proofs.«138670_j52664888983659_2_alg».proof.Proof.Gen.Kernel.Points
import proofs.«138670_j52664888983659_2_alg».proof.Proof.Gen.Kernel.Frame
import proofs.«138670_j52664888983659_2_alg».proof.Proof.Gen.KernelIdeal
import proofs.«138670_j52664888983659_2_alg».proof.Proof.Gen.KernelIdeal.Skeleton
import proofs.«138670_j52664888983659_2_alg».proof.Proof.Gen.KernelIdeal.Launch
import proofs.«138670_j52664888983659_2_alg».proof.Proof.Gen.KernelIdeal.Points
import proofs.«138670_j52664888983659_2_alg».proof.Proof.Gen.KernelIdeal.Frame
import proofs.«138670_j52664888983659_2_alg».proof.Proof.Gen.ReferenceIdeal
import proofs.«138670_j52664888983659_2_alg».proof.Proof.Gen.Pre_finite_inputs
import proofs.«138670_j52664888983659_2_alg».proof.Proof.KRun
import proofs.«138670_j52664888983659_2_alg».proof.Proof.KValue
import proofs.«138670_j52664888983659_2_alg».proof.Proof.RefRun
import proofs.«138670_j52664888983659_2_alg».proof.Proof.RefRead
import proofs.«138670_j52664888983659_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section Bridge

open Cert.KernelIdeal Cert.KernelIdeal.Gen

variable (m : (ℓ : Loc nD τ sig) → Buf (Elt Ideal) ℓ) (ρ : Dev nD → PrngReg)

/-- The nodes' hidden layer the first pallas_call leaves is the reference's, as arrays. -/
theorem hidden0_eq (c : Dev nD) :
    (W2 m ρ c (Proc.devRef .tc main_v5_0) : S1024x256.Idx → EReal)
      = Cert.ReferenceIdeal.Read.val_main_v12 (F := Ideal) (m ((c : Thread nD τ).loc main_arg0)) (m ((c : Thread nD τ).loc main_arg1))
          (m ((c : Thread nD τ).loc main_arg3)) := by
  funext i
  obtain ⟨b, o, rfl⟩ : ∃ (b : Fin 1024) (o : Fin 256), i = ix2 b o := ⟨i 0, i 1, eq_ix2 i⟩
  rw [Cert.KernelIdeal.KValue.h0_apply, Cert.RefValue.h0_apply]

/-- The one-hop hidden layer the first pallas_call leaves is the reference's, as arrays. -/
theorem hidden1_eq (c : Dev nD) :
    (W2 m ρ c (Proc.devRef .tc main_v5_1) : S25600x256.Idx → EReal)
      = Cert.ReferenceIdeal.Read.val_main_v13 (F := Ideal) (m ((c : Thread nD τ).loc main_arg1)) (m ((c : Thread nD τ).loc main_arg2))
          (m ((c : Thread nD τ).loc main_arg3)) := by
  funext i
  obtain ⟨n, o, rfl⟩ : ∃ (n : Fin 25600) (o : Fin 256), i = ix2 n o := ⟨i 0, i 1, eq_ix2 i⟩
  rw [Cert.KernelIdeal.KValue.h1_apply, Cert.RefValue.h1_apply]

/-- The result the second pallas_call leaves is the reference's result of the same five arguments. -/
theorem result_eq (c : Dev nD) :
    (W4 m ρ c (Proc.devRef .tc main_v7) : S1024x41.Idx → EReal)
      = Cert.ReferenceIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, cc, rfl⟩ : ∃ (b : Fin 1024) (cc : Fin 41), i = ix2 b cc := ⟨i 0, i 1, eq_ix2 i⟩
  rw [Cert.KernelIdeal.KValue.out_apply, Cert.RefValue.out_apply, hidden0_eq, hidden1_eq]

end Bridge

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs run and end with the same result array. -/
theorem algebraic : Cert.algebraic_KernelIdeal_ReferenceIdeal := by
  intro m ρ m' ρ' _ hagree
  refine ⟨fun c => Cert.KernelIdeal.Gen.W4 m ρ c (Proc.devRef .tc Cert.KernelIdeal.main_v7),
    Cert.KernelIdeal.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v20_eq, e0, e1, e2, e3, e4]
  exact (result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
